-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128x128 .f32) (main_arg9 : FVec F S128 .f32) (main_arg10 : FVec F S128x128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  main_v48

def fn_part1 {F : FTy → Type} [FloatOps F] (main_arg5 : FVec F S128x128 .f32) (main_arg6 : FVec F S128 .f32) (main_arg7 : FVec F S128x128 .f32) (main_arg8 : FVec F S128x128 .f32) (main_arg9 : FVec F S128 .f32) (main_arg10 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S128x128 .f32) (main_arg9 : FVec F S128 .f32) (main_arg10 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S5000x128 : Shape := ⟨2, ![5000, 128]⟩
abbrev S1x128 : Shape := ⟨2, ![1, 128]⟩

abbrev nBuf : Space → Nat
  | .hbm => 99
  | .vmem => 27
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x128, .f32⟩
  | .hbm, ⟨24, _⟩ => ⟨S_, .f32⟩
  | .hbm, ⟨25, _⟩ => ⟨S100000x128, .f32⟩
  | .hbm, ⟨26, _⟩ => ⟨S1600000x1, .i32⟩
  | .hbm, ⟨27, _⟩ => ⟨S100000x128, .f32⟩
  | .hbm, ⟨28, _⟩ => ⟨S_, .f32⟩
  | .hbm, ⟨29, _⟩ => ⟨S1600000, .f32⟩
  | .hbm, ⟨30, _⟩ => ⟨S_, .f32⟩
  | .hbm, ⟨31, _⟩ => ⟨S100000, .f32⟩
  | .hbm, ⟨32, _⟩ => ⟨S1600000x1, .i32⟩
  | .hbm, ⟨33, _⟩ => ⟨S100000, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000x1, .f32⟩
  | .hbm, ⟨38, _⟩ => ⟨S100000x128, .f32⟩
  | .hbm, ⟨39, _⟩ => ⟨S100000x128, .f32⟩
  | .hbm, ⟨40, _⟩ => ⟨S128x128, .f32⟩
  | .hbm, ⟨41, _⟩ => ⟨S128x128, .f32⟩
  | .hbm, ⟨42, _⟩ => ⟨S100000x128, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x128, .f32⟩
  | .hbm, ⟨52, _⟩ => ⟨S_, .f32⟩
  | .hbm, ⟨53, _⟩ => ⟨S100000x128, .f32⟩
  | .hbm, ⟨54, _⟩ => ⟨S1600000x1, .i32⟩
  | .hbm, ⟨55, _⟩ => ⟨S100000x128, .f32⟩
  | .hbm, ⟨56, _⟩ => ⟨S_, .f32⟩
  | .hbm, ⟨57, _⟩ => ⟨S1600000, .f32⟩
  | .hbm, ⟨58, _⟩ => ⟨S_, .f32⟩
  | .hbm, ⟨59, _⟩ => ⟨S100000, .f32⟩
  | .hbm, ⟨60, _⟩ => ⟨S1600000x1, .i32⟩
  | .hbm, ⟨61, _⟩ => ⟨S100000, .f32⟩
  | .hbm, ⟨62, _⟩ => ⟨S_, .f32⟩
  | .hbm, ⟨63, _⟩ => ⟨S100000, .f32⟩
  | .hbm, ⟨64, _⟩ => ⟨S100000, .f32⟩
  | .hbm, ⟨65, _⟩ => ⟨S100000x1, .f32⟩
  | .hbm, ⟨66, _⟩ => ⟨S100000x128, .f32⟩
  | .hbm, ⟨67, _⟩ => ⟨S100000x128, .f32⟩
  | .hbm, ⟨68, _⟩ => ⟨S128x128, .f32⟩
  | .hbm, ⟨69, _⟩ => ⟨S128x128, .f32⟩
  | .hbm, ⟨70, _⟩ => ⟨S100000x128, .f32⟩
  | .hbm, ⟨71, _⟩ => ⟨S_, .i32⟩
  | .hbm, ⟨72, _⟩ => ⟨S1600000, .i32⟩
  | .hbm, ⟨73, _⟩ => ⟨S1600000, .i1⟩
  | .hbm, ⟨74, _⟩ => ⟨S_, .i32⟩
  | .hbm, ⟨75, _⟩ => ⟨S1600000, .i32⟩
  | .hbm, ⟨76, _⟩ => ⟨S1600000, .i32⟩
  | .hbm, ⟨77, _⟩ => ⟨S1600000, .i32⟩
  | .hbm, ⟨78, _⟩ => ⟨S1600000x1, .i32⟩
  | .hbm, ⟨79, _⟩ => ⟨S1600000x128, .f32⟩
  | .hbm, ⟨80, _⟩ => ⟨S_, .f32⟩
  | .hbm, ⟨81, _⟩ => ⟨S100000x128, .f32⟩
  | .hbm, ⟨82, _⟩ => ⟨S1600000x1, .i32⟩
  | .hbm, ⟨83, _⟩ => ⟨S100000x128, .f32⟩
  | .hbm, ⟨84, _⟩ => ⟨S_, .f32⟩
  | .hbm, ⟨85, _⟩ => ⟨S1600000, .f32⟩
  | .hbm, ⟨86, _⟩ => ⟨S_, .f32⟩
  | .hbm, ⟨87, _⟩ => ⟨S100000, .f32⟩
  | .hbm, ⟨88, _⟩ => ⟨S1600000x1, .i32⟩
  | .hbm, ⟨89, _⟩ => ⟨S100000, .f32⟩
  | .hbm, ⟨90, _⟩ => ⟨S_, .f32⟩
  | .hbm, ⟨91, _⟩ => ⟨S100000, .f32⟩
  | .hbm, ⟨92, _⟩ => ⟨S100000, .f32⟩
  | .hbm, ⟨93, _⟩ => ⟨S100000x1, .f32⟩
  | .hbm, ⟨94, _⟩ => ⟨S100000x128, .f32⟩
  | .hbm, ⟨95, _⟩ => ⟨S100000x128, .f32⟩
  | .hbm, ⟨96, _⟩ => ⟨S128x128, .f32⟩
  | .hbm, ⟨97, _⟩ => ⟨S128x128, .f32⟩
  | .hbm, ⟨98, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S128, .f32⟩
  | .local _ .vmem, ⟨24, _⟩ => ⟨S128x128, .f32⟩
  | .local _ .vmem, ⟨25, _⟩ => ⟨S5000x128, .f32⟩
  | .local _ .vmem, ⟨26, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_4 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_6 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_cst_8 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_9 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_c_10 : Ref sig .tc := ⟨.hbm, 71, rfl⟩
abbrev main_v48 : Ref sig .tc := ⟨.hbm, 72, rfl⟩
abbrev main_v49 : Ref sig .tc := ⟨.hbm, 73, rfl⟩
abbrev main_c_11 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_12 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_13 : Ref sig .tc := ⟨.hbm, 84, rfl⟩
abbrev main_v58 : Ref sig .tc := ⟨.hbm, 85, rfl⟩
abbrev main_cst_14 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_15 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bitsLt_bf16_f32 : FTy.bits .bf16 < FTy.bits .f32
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v25) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v45) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v47) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v47) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v66) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v67) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v68) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v69) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 120
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x128, .f32⟩
  | .hbm, ⟨24, _⟩ => ⟨S_, .f32⟩
  | .hbm, ⟨25, _⟩ => ⟨S100000x128, .f32⟩
  | .hbm, ⟨26, _⟩ => ⟨S1600000x1, .i32⟩
  | .hbm, ⟨27, _⟩ => ⟨S100000x128, .f32⟩
  | .hbm, ⟨28, _⟩ => ⟨S_, .f32⟩
  | .hbm, ⟨29, _⟩ => ⟨S1600000, .f32⟩
  | .hbm, ⟨30, _⟩ => ⟨S_, .f32⟩
  | .hbm, ⟨31, _⟩ => ⟨S100000, .f32⟩
  | .hbm, ⟨32, _⟩ => ⟨S1600000x1, .i32⟩
  | .hbm, ⟨33, _⟩ => ⟨S100000, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000x1, .f32⟩
  | .hbm, ⟨38, _⟩ => ⟨S100000x128, .f32⟩
  | .hbm, ⟨39, _⟩ => ⟨S100000x128, .f32⟩
  | .hbm, ⟨40, _⟩ => ⟨S128x128, .f32⟩
  | .hbm, ⟨41, _⟩ => ⟨S100000x128, .f32⟩
  | .hbm, ⟨42, _⟩ => ⟨S1x128, .f32⟩
  | .hbm, ⟨43, _⟩ => ⟨S100000x128, .f32⟩
  | .hbm, ⟨44, _⟩ => ⟨S100000x128, .f32⟩
  | .hbm, ⟨45, _⟩ => ⟨S128x128, .f32⟩
  | .hbm, ⟨46, _⟩ => ⟨S100000x128, .f32⟩
  | .hbm, ⟨47, _⟩ => ⟨S100000x128, .f32⟩
  | .hbm, ⟨48, _⟩ => ⟨S_, .f32⟩
  | .hbm, ⟨49, _⟩ => ⟨S100000x128, .f32⟩
  | .hbm, ⟨50, _⟩ => ⟨S100000x128, .f32⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1600000x128, .f32⟩
  | .hbm, ⟨60, _⟩ => ⟨S_, .f32⟩
  | .hbm, ⟨61, _⟩ => ⟨S100000x128, .f32⟩
  | .hbm, ⟨62, _⟩ => ⟨S1600000x1, .i32⟩
  | .hbm, ⟨63, _⟩ => ⟨S100000x128, .f32⟩
  | .hbm, ⟨64, _⟩ => ⟨S_, .f32⟩
  | .hbm, ⟨65, _⟩ => ⟨S1600000, .f32⟩
  | .hbm, ⟨66, _⟩ => ⟨S_, .f32⟩
  | .hbm, ⟨67, _⟩ => ⟨S100000, .f32⟩
  | .hbm, ⟨68, _⟩ => ⟨S1600000x1, .i32⟩
  | .hbm, ⟨69, _⟩ => ⟨S100000, .f32⟩
  | .hbm, ⟨70, _⟩ => ⟨S_, .f32⟩
  | .hbm, ⟨71, _⟩ => ⟨S100000, .f32⟩
  | .hbm, ⟨72, _⟩ => ⟨S100000, .f32⟩
  | .hbm, ⟨73, _⟩ => ⟨S100000x1, .f32⟩
  | .hbm, ⟨74, _⟩ => ⟨S100000x128, .f32⟩
  | .hbm, ⟨75, _⟩ => ⟨S100000x128, .f32⟩
  | .hbm, ⟨76, _⟩ => ⟨S128x128, .f32⟩
  | .hbm, ⟨77, _⟩ => ⟨S100000x128, .f32⟩
  | .hbm, ⟨78, _⟩ => ⟨S1x128, .f32⟩
  | .hbm, ⟨79, _⟩ => ⟨S100000x128, .f32⟩
  | .hbm, ⟨80, _⟩ => ⟨S100000x128, .f32⟩
  | .hbm, ⟨81, _⟩ => ⟨S128x128, .f32⟩
  | .hbm, ⟨82, _⟩ => ⟨S100000x128, .f32⟩
  | .hbm, ⟨83, _⟩ => ⟨S100000x128, .f32⟩
  | .hbm, ⟨84, _⟩ => ⟨S_, .f32⟩
  | .hbm, ⟨85, _⟩ => ⟨S100000x128, .f32⟩
  | .hbm, ⟨86, _⟩ => ⟨S100000x128, .f32⟩
  | .hbm, ⟨87, _⟩ => ⟨S_, .i32⟩
  | .hbm, ⟨88, _⟩ => ⟨S1600000, .i32⟩
  | .hbm, ⟨89, _⟩ => ⟨S1600000, .i1⟩
  | .hbm, ⟨90, _⟩ => ⟨S_, .i32⟩
  | .hbm, ⟨91, _⟩ => ⟨S1600000, .i32⟩
  | .hbm, ⟨92, _⟩ => ⟨S1600000, .i32⟩
  | .hbm, ⟨93, _⟩ => ⟨S1600000, .i32⟩
  | .hbm, ⟨94, _⟩ => ⟨S1600000x1, .i32⟩
  | .hbm, ⟨95, _⟩ => ⟨S1600000x128, .f32⟩
  | .hbm, ⟨96, _⟩ => ⟨S_, .f32⟩
  | .hbm, ⟨97, _⟩ => ⟨S100000x128, .f32⟩
  | .hbm, ⟨98, _⟩ => ⟨S1600000x1, .i32⟩
  | .hbm, ⟨99, _⟩ => ⟨S100000x128, .f32⟩
  | .hbm, ⟨100, _⟩ => ⟨S_, .f32⟩
  | .hbm, ⟨101, _⟩ => ⟨S1600000, .f32⟩
  | .hbm, ⟨102, _⟩ => ⟨S_, .f32⟩
  | .hbm, ⟨103, _⟩ => ⟨S100000, .f32⟩
  | .hbm, ⟨104, _⟩ => ⟨S1600000x1, .i32⟩
  | .hbm, ⟨105, _⟩ => ⟨S100000, .f32⟩
  | .hbm, ⟨106, _⟩ => ⟨S_, .f32⟩
  | .hbm, ⟨107, _⟩ => ⟨S100000, .f32⟩
  | .hbm, ⟨108, _⟩ => ⟨S100000, .f32⟩
  | .hbm, ⟨109, _⟩ => ⟨S100000x1, .f32⟩
  | .hbm, ⟨110, _⟩ => ⟨S100000x128, .f32⟩
  | .hbm, ⟨111, _⟩ => ⟨S100000x128, .f32⟩
  | .hbm, ⟨112, _⟩ => ⟨S128x128, .f32⟩
  | .hbm, ⟨113, _⟩ => ⟨S100000x128, .f32⟩
  | .hbm, ⟨114, _⟩ => ⟨S1x128, .f32⟩
  | .hbm, ⟨115, _⟩ => ⟨S100000x128, .f32⟩
  | .hbm, ⟨116, _⟩ => ⟨S100000x128, .f32⟩
  | .hbm, ⟨117, _⟩ => ⟨S128x128, .f32⟩
  | .hbm, ⟨118, _⟩ => ⟨S100000x128, .f32⟩
  | .hbm, ⟨119, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_call0_cst : Ref sig .tc := ⟨.hbm, 48, rfl⟩
abbrev main_call0_v0 : Ref sig .tc := ⟨.hbm, 49, rfl⟩
abbrev main_v31 : Ref sig .tc := ⟨.hbm, 50, rfl⟩
abbrev main_c_4 : Ref sig .tc := ⟨.hbm, 51, rfl⟩
abbrev main_v32 : Ref sig .tc := ⟨.hbm, 52, rfl⟩
abbrev main_v33 : Ref sig .tc := ⟨.hbm, 53, rfl⟩
abbrev main_c_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_6 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_7 : Ref sig .tc := ⟨.hbm, 64, rfl⟩
abbrev main_v42 : Ref sig .tc := ⟨.hbm, 65, rfl⟩
abbrev main_cst_8 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_9 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_call1_cst : Ref sig .tc := ⟨.hbm, 84, rfl⟩
abbrev main_call1_v0 : Ref sig .tc := ⟨.hbm, 85, rfl⟩
abbrev main_v59 : Ref sig .tc := ⟨.hbm, 86, rfl⟩
abbrev main_c_10 : Ref sig .tc := ⟨.hbm, 87, rfl⟩
abbrev main_v60 : Ref sig .tc := ⟨.hbm, 88, rfl⟩
abbrev main_v61 : Ref sig .tc := ⟨.hbm, 89, rfl⟩
abbrev main_c_11 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_12 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_13 : Ref sig .tc := ⟨.hbm, 100, rfl⟩
abbrev main_v70 : Ref sig .tc := ⟨.hbm, 101, rfl⟩
abbrev main_cst_14 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_cst_15 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The tiled program's run, with every buffer's final contents named.

  The program is three tiled regions between stretches of host operations. The contents of every buffer at each
  boundary are a fold through the program: a host stretch applies its operations, a region replaces its output array
  by what its tiles wrote and leaves everything else. `W6` is the fold after the last region. Launched from any memory
  with zero counters, every weakly fair execution terminates, and the final memory agrees with `W6` on every buffer
  that outlives the program — so any statement that follows from that agreement holds of every final memory
  (`run_final`). In particular the result array ends at `W6`'s contents at its buffer, which the last region's
  proof data name, and the arguments end as launched (`run_result`).
-/
import proofs.«103532_j33801392619948_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every final memory agrees with the last boundary's contents `W6` on every buffer that outlives the program; `Q` is
    anything that follows. The launch is the library's for a program of several regions, over the segments, proof data
    and thread states the program's frame is stated with; only the last reading is left open. -/
theorem run_final {Q : PUnit × MemSt nD τ sig (Elt F) → Prop}
    (hQ : ∀ s : MemSt nD τ sig (Elt F),
      (∀ c : Dev nD, ∀ b ∈ Pipeline.ucRefs τ sig, s.mem (((c : Thread nD τ)).1, b) = W6 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := hQ)

/-- The result array ends at what the last region's 20 tiles wrote, and every argument as launched. -/
theorem run_result : θ_run defs (onTc (τ := τ) (main (F := F))) ⟨m, fun _ => 0, ρ⟩ (fun r => ∀ c : Dev nD,
      r.2.mem ((c.tc : Thread nD τ).loc main_v69) = (dat2 (V5 m ρ) c).arrAt 5 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  run_final m ρ fun s h c =>
    ⟨(h c _ (mem_uc main_v69 (by decide))).trans (W6_arr m ρ c 5),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c),
     (h c _ (mem_uc main_arg9 (by decide))).trans (W6_main_arg9 m ρ c),
     (h c _ (mem_uc main_arg10 (by decide))).trans (W6_main_arg10 m ρ c)⟩

end Cert.KernelIdeal.Run

end
-- ==== Proof.LibPlainDot.lean ====
/-
  A plain matrix product read at an index, on the extended reals.

  For the dimension numbers of an M×K by K×N product (contract the left operand's axis 1 with the right operand's
  axis 0, no batch axis), the product at row `r`, column `n` is the sum over the K contraction positions of
  `l (r, k) · r' (k, n)`. The contraction index of the dimension record is a one-coordinate index; it is re-indexed by
  that coordinate, and the operand indices at an output index and a contraction position are read off coordinate by
  coordinate. Stated for a kernel's matrix unit accumulating into the zero splat and for a host `dot_general`.
-/
import Idealize.ShloMosaic.PureOps.Ideal
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The contraction shape of a plain product has one axis, -/
theorem contr_rank : (DotDims.plain M K N).contr.rank = 1 := rfl

/-- of extent K. -/
theorem contr_size : (DotDims.plain M K N).contr.size ⟨0, by rw [contr_rank]; exact Nat.one_pos⟩ = K := rfl

/-- The left operand's index at output index `j` and contraction position `k` is (row of `j`, `k`). -/
theorem lhsIdx_eq (j : (⟨2, ![M, N]⟩ : Shape).Idx) (k : Fin K) :
    (DotDims.plain M K N).lhsIdx j ((contrEquiv1 (DotDims.plain M K N) K (contr_rank M K N) (contr_size M K N)).symm k)
      = ix2 (j 0) k := by
  funext a
  apply Fin.ext
  match a with
  | ⟨0, _⟩ => rfl
  | ⟨1, _⟩ =>
    exact ((DotDims.plain M K N).lhsIdx_val_of_single (cl := 1) rfl j _).trans
      (contrEquiv1_symm_val (DotDims.plain M K N) K (contr_rank M K N) (contr_size M K N) k)

/-- The right operand's index at output index `j` and contraction position `k` is (`k`, column of `j`). -/
theorem rhsIdx_eq (j : (⟨2, ![M, N]⟩ : Shape).Idx) (k : Fin K) :
    (DotDims.plain M K N).rhsIdx j ((contrEquiv1 (DotDims.plain M K N) K (contr_rank M K N) (contr_size M K N)).symm k)
      = ix2 k (j 1) := by
  funext a
  apply Fin.ext
  match a with
  | ⟨0, _⟩ =>
    exact ((DotDims.plain M K N).rhsIdx_val_of_single (cr := 0) rfl j _).trans
      (contrEquiv1_symm_val (DotDims.plain M K N) K (contr_rank M K N) (contr_size M K N) k)
  | ⟨1, _⟩ => rfl

/-- The sum over the record's contraction index is the sum over the K positions. -/
theorem sum_contr (l : (⟨2, ![M, K]⟩ : Shape).Idx → EReal) (r : (⟨2, ![K, N]⟩ : Shape).Idx → EReal)
    (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K (contr_rank M K N) (contr_size M K N)).symm]
  exact Finset.sum_congr rfl fun k _ =>
    congrArg₂ (fun a b => l a * r b) (lhsIdx_eq M K N j k) (rhsIdx_eq M K N j k)

/-- A kernel's matrix unit accumulating into the zero splat, at an index: the plain sum of products. -/
theorem matmul_zero_apply {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_contr M K N l r j)

/-- A host `dot_general` at an index: the same sum, whatever the precision and schedule keys. -/
theorem dotGeneral_apply {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j
      = ∑ k : Fin K, l (ix2 (j 0) k) * r (ix2 k (j 1)) :=
  (Ideal.dotGeneral_apply (DotDims.plain M K N) prec sched l r j).trans (sum_contr M K N l r j)

end Cert.LibPlainDot

end
-- ==== Proof.DenseLayer.lean ====
/-
  One layer of the graph convolution, element by element, on the extended reals.

  A layer takes the node features `h` ([rows, 128]), the mean `mean` of each node's in-neighbours' features
  ([rows, 128]), two square matrices `wl`, `wr` ([128, 128], already transposed: a row index is an input feature, a column
  index an output feature) and a bias row `b` ([128]). At row `p` and column `q` its value before the nonlinearity is

      (Σₖ mean(p,k) · wl(k,q))  +  (Σₖ h(p,k) · wr(k,q))  +  b(q).

  The tiled program adds the two products first and the bias last; the plain program adds the bias to the first product
  and the second product last. Addition on the extended reals is commutative and associative with no side condition
  (`add_right_comm`), so both are the same element: no finiteness of the inputs is used. Rounding an operand to a
  narrower format on the way into the matrix unit is the identity on the extended reals, and a product accumulated into
  the zero splat is the plain sum of products.
-/
import proofs.«103532_j33801392619948_1_alg».proof.Proof.LibPlainDot
import Idealize.ShloMosaic.Lib.ValueIdx
import Idealize.ShloMosaic.Lib.ValueLayout
import Idealize.ShloMosaic.Lib.Pipeline.Value

noncomputable section

namespace Cert.DenseLayer

open Idealize.ShloMosaic Idealize.ShloMosaic.ValueIdx

variable (M : Nat)

/-- The layer's value before the nonlinearity at row `p`, column `q`, grouped as the tiled program groups it. -/
def pre (h mean : (⟨2, ![M, 128]⟩ : Shape).Idx → EReal) (wl wr : (⟨2, ![128, 128]⟩ : Shape).Idx → EReal)
    (b : (⟨1, ![128]⟩ : Shape).Idx → EReal) (p : Fin M) (q : Fin 128) : EReal :=
  (∑ k : Fin 128, mean (ix2 p k) * wl (ix2 k q)) + (∑ k : Fin 128, h (ix2 p k) * wr (ix2 k q)) + b (ix1 q)

/-- The layer as a whole array, without the nonlinearity (the last layer). -/
def lin (h mean : (⟨2, ![M, 128]⟩ : Shape).Idx → EReal) (wl wr : (⟨2, ![128, 128]⟩ : Shape).Idx → EReal)
    (b : (⟨1, ![128]⟩ : Shape).Idx → EReal) : (⟨2, ![M, 128]⟩ : Shape).Idx → EReal :=
  fun i => pre M h mean wl wr b (i 0) (i 1)

/-- The layer as a whole array, clipped below at zero (the first two layers). -/
def relu (h mean : (⟨2, ![M, 128]⟩ : Shape).Idx → EReal) (wl wr : (⟨2, ![128, 128]⟩ : Shape).Idx → EReal)
    (b : (⟨1, ![128]⟩ : Shape).Idx → EReal) : (⟨2, ![M, 128]⟩ : Shape).Idx → EReal :=
  fun i => max (pre M h mean wl wr b (i 0) (i 1)) (Ideal.ofBits .f32 0x00000000#32)

/-- An element of the layer depends on one row of the features and one row of the means: if row `p` of a block is row
    `p'` of the whole arrays, the block's element is the whole array's. -/
theorem pre_rows {M' : Nat} (h mean : (⟨2, ![M, 128]⟩ : Shape).Idx → EReal)
    (h' mean' : (⟨2, ![M', 128]⟩ : Shape).Idx → EReal) (wl wr : (⟨2, ![128, 128]⟩ : Shape).Idx → EReal)
    (b : (⟨1, ![128]⟩ : Shape).Idx → EReal) (p : Fin M) (p' : Fin M') (q : Fin 128)
    (hh : ∀ k : Fin 128, h (ix2 p k) = h' (ix2 p' k)) (hm : ∀ k : Fin 128, mean (ix2 p k) = mean' (ix2 p' k)) :
    pre M h mean wl wr b p q = pre M' h' mean' wl wr b p' q := by
  unfold pre
  simp only [hh, hm]

/-- The bias row laid over every row by a cast to one row and a broadcast of that row. -/
theorem tiledBias_apply (b : (⟨1, ![128]⟩ : Shape).Idx → EReal)
    (hc : (⟨1, ![128]⟩ : Shape).ShapeCasts ⟨2, ![1, 128]⟩) (hb : (⟨2, ![1, 128]⟩ : Shape).Broadcasts ⟨2, ![M, 128]⟩)
    (p : Fin M) (q : Fin 128) :
    broadcastTo ⟨2, ![M, 128]⟩ (shapeCast ⟨2, ![1, 128]⟩ b hc) hb (ix2 p q) = b (ix1 q) := by
  rw [broadcastTo_1b_ab_apply, shapeCast_a_1a_apply]

/-- The bias row laid over every row by two broadcasts along named axes (first to one row, then to all rows). -/
theorem hostBias_apply (b : (⟨1, ![128]⟩ : Shape).Idx → EReal)
    (h1 : (⟨1, ![128]⟩ : Shape).BroadcastsInDim ⟨2, ![1, 128]⟩ ![1])
    (h2 : (⟨2, ![1, 128]⟩ : Shape).BroadcastsInDim ⟨2, ![M, 128]⟩ ![0, 1])
    (p : Fin M) (q : Fin 128) :
    broadcastInDim ⟨2, ![M, 128]⟩ ![0, 1] h2 (broadcastInDim ⟨2, ![1, 128]⟩ ![1] h1 b) (ix2 p q) = b (ix1 q) := by
  rw [broadcastInDim_apply ![0, 1] h2 _ (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])]
  exact broadcastInDim_apply ![1] h1 b (ix2 (0 : Fin 1) q) (ix1 q) (fun a => match a with
    | ⟨0, _⟩ => by show q.val = if (128 : Nat) = 1 then 0 else q.val; rw [if_neg (by decide)])

/-- The tiled program's sum of two matrix-unit products (operands rounded on the way in, each accumulated into the zero
    splat) and the bias, read at an element. -/
theorem tiled_apply (h mean : FVec Ideal ⟨2, ![M, 128]⟩ .f32) (wl wr : FVec Ideal ⟨2, ![128, 128]⟩ .f32)
    (b : FVec Ideal ⟨1, ![128]⟩ .f32) (hlt : FTy.bf16.bits < FTy.f32.bits)
    (hc : (⟨1, ![128]⟩ : Shape).ShapeCasts ⟨2, ![1, 128]⟩) (hb : (⟨2, ![1, 128]⟩ : Shape).Broadcasts ⟨2, ![M, 128]⟩)
    (p : Fin M) (q : Fin 128) :
    addf (addf
        (matmul (DotDims.plain M 128 128) none (truncf .bf16 mean hlt) (truncf .bf16 wl hlt)
          (constant (F := Ideal) ⟨2, ![M, 128]⟩ .f32 0x00000000#32))
        (matmul (DotDims.plain M 128 128) none (truncf .bf16 h hlt) (truncf .bf16 wr hlt)
          (constant (F := Ideal) ⟨2, ![M, 128]⟩ .f32 0x00000000#32)))
      (broadcastTo ⟨2, ![M, 128]⟩ (shapeCast ⟨2, ![1, 128]⟩ b hc) hb) (ix2 p q)
      = pre M h mean wl wr b p q := by
  rw [addf_apply, addf_apply, tiledBias_apply M b hc hb p q]
  show FloatOps.matmul _ _ _ _ _ _ + FloatOps.matmul _ _ _ _ _ _ + _ = _
  rw [LibPlainDot.matmul_zero_apply, LibPlainDot.matmul_zero_apply]
  rfl

/-- The plain program's two whole products and the bias, added in its order, read at an element: the same value. -/
theorem host_apply (h mean : FVec Ideal ⟨2, ![M, 128]⟩ .f32) (wl wr : FVec Ideal ⟨2, ![128, 128]⟩ .f32)
    (b : FVec Ideal ⟨1, ![128]⟩ .f32)
    (h1 : (⟨1, ![128]⟩ : Shape).BroadcastsInDim ⟨2, ![1, 128]⟩ ![1])
    (h2 : (⟨2, ![1, 128]⟩ : Shape).BroadcastsInDim ⟨2, ![M, 128]⟩ ![0, 1])
    (p : Fin M) (q : Fin 128) :
    addf (addf (Host.dotGeneral (DotDims.plain M 128 128) none mean wl)
        (broadcastInDim ⟨2, ![M, 128]⟩ ![0, 1] h2 (broadcastInDim ⟨2, ![1, 128]⟩ ![1] h1 b)))
      (Host.dotGeneral (DotDims.plain M 128 128) none h wr) (ix2 p q)
      = pre M h mean wl wr b p q := by
  rw [addf_apply, addf_apply, hostBias_apply M b h1 h2 p q]
  show FloatOps.dotGeneral _ _ _ _ _ _ + _ + FloatOps.dotGeneral _ _ _ _ _ _ = _
  rw [LibPlainDot.dotGeneral_apply, LibPlainDot.dotGeneral_apply]
  exact add_right_comm _ _ _

/-- The plain program's layer without the nonlinearity is `lin`, as arrays. -/
theorem host_lin (h mean : FVec Ideal ⟨2, ![M, 128]⟩ .f32) (wl wr : FVec Ideal ⟨2, ![128, 128]⟩ .f32)
    (b : FVec Ideal ⟨1, ![128]⟩ .f32)
    (h1 : (⟨1, ![128]⟩ : Shape).BroadcastsInDim ⟨2, ![1, 128]⟩ ![1])
    (h2 : (⟨2, ![1, 128]⟩ : Shape).BroadcastsInDim ⟨2, ![M, 128]⟩ ![0, 1]) :
    addf (addf (Host.dotGeneral (DotDims.plain M 128 128) none mean wl)
        (broadcastInDim ⟨2, ![M, 128]⟩ ![0, 1] h2 (broadcastInDim ⟨2, ![1, 128]⟩ ![1] h1 b)))
      (Host.dotGeneral (DotDims.plain M 128 128) none h wr)
      = lin M h mean wl wr b := by
  funext i
  obtain ⟨p, q, rfl⟩ : ∃ (p : Fin M) (q : Fin 128), i = ix2 p q := ⟨i 0, i 1, eq_ix2 i⟩
  exact host_apply M h mean wl wr b h1 h2 p q

/-- The plain program's layer followed by the maximum with the zero splat is `relu`, as arrays. -/
theorem host_relu (h mean : FVec Ideal ⟨2, ![M, 128]⟩ .f32) (wl wr : FVec Ideal ⟨2, ![128, 128]⟩ .f32)
    (b : FVec Ideal ⟨1, ![128]⟩ .f32)
    (h1 : (⟨1, ![128]⟩ : Shape).BroadcastsInDim ⟨2, ![1, 128]⟩ ![1])
    (h2 : (⟨2, ![1, 128]⟩ : Shape).BroadcastsInDim ⟨2, ![M, 128]⟩ ![0, 1])
    (h0 : (⟨0, ![]⟩ : Shape).BroadcastsInDim ⟨2, ![M, 128]⟩ ![]) :
    maximumf (addf (addf (Host.dotGeneral (DotDims.plain M 128 128) none mean wl)
        (broadcastInDim ⟨2, ![M, 128]⟩ ![0, 1] h2 (broadcastInDim ⟨2, ![1, 128]⟩ ![1] h1 b)))
      (Host.dotGeneral (DotDims.plain M 128 128) none h wr))
      (broadcastInDim ⟨2, ![M, 128]⟩ ![] h0 (constant (F := Ideal) ⟨0, ![]⟩ .f32 0x00000000#32))
      = relu M h mean wl wr b := by
  funext i
  obtain ⟨p, q, rfl⟩ : ∃ (p : Fin M) (q : Fin 128), i = ix2 p q := ⟨i 0, i 1, eq_ix2 i⟩
  rw [maximumf_apply, host_apply M h mean wl wr b h1 h2 p q]
  rfl

end Cert.DenseLayer

end
-- ==== Proof.Region0.lean ====
/-
  Region 0 of the tiled program: one layer's dense part over 20 tiles of 5000 rows.

  Whatever the five arrays the region reads hold when it is entered (`V`), its output array ends holding the layer
  (clipped below at zero) of those whole arrays. A tile `t` reads rows 5000·t … 5000·t + 4999 of the features and of the
  means, and the whole of the two matrices and the bias; an element of a layer depends on one row of the features and one
  row of the means, so the tile's result is rows 5000·t … of the whole layer; the 20 tiles cover the 100000 rows.
-/
import proofs.«103532_j33801392619948_1_alg».proof.Proof.Gen.KernelIdeal.Frame
import proofs.«103532_j33801392619948_1_alg».proof.Proof.DenseLayer
import Idealize.ShloMosaic.Lib.Pipeline.Value
import Idealize.ShloMosaic.Lib.ValueIdx

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The layer of the five arrays as the region finds them. -/
abbrev G (c : Dev nD) : S100000x128.Idx → EReal :=
  DenseLayer.relu 100000 (V c main_arg0) (V c main_v22) (V c main_v23) (V c main_v24) (V c main_arg3)

/-- The body's stored value at row `p`, column `q` of a tile, from the tile's five blocks. -/
theorem pay_apply (x0 x1 : FVec Ideal S5000x128 .f32) (x2 x4 : FVec Ideal S128x128 .f32) (x3 : FVec Ideal S128 .f32)
    (p : Fin 5000) (q : Fin 128) :
    k0_pay1 (F := Ideal) x0 x1 x2 x4 x3 (ix2 p q) = max (DenseLayer.pre 5000 x0 x1 x2 x4 x3 p q) (Ideal.ofBits .f32 0x00000000#32) := by
  unfold k0_pay1
  simp only [shapeCast_self]
  exact congrArg (fun z => max z (Ideal.ofBits .f32 0x00000000#32))
    (DenseLayer.tiled_apply 5000 x0 x1 x2 x4 x3 bitsLt_bf16_f32 shapeCasts_S128_S1x128 broadcasts_S1x128_S5000x128 p q)

/-- The printed index maps over the 20 tiles: the row windows move with the tile, the others stay at the origin. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of tile `t`'s block of the features is row 5000·t + p of the array. -/
theorem rows_x (c : Dev nD) (t : Fin cfg0.N) (p : Fin 5000) (k : Fin 128) (P : Fin 100000) (hP : P.val = t.val * 5000 + p.val) :
    (iblk0 V c 0 t : Vec Ideal S5000x128 .f32) (ix2 p k) = (V c main_arg0 : S100000x128.Idx → EReal) (ix2 P k) := by
  obtain ⟨e0, e1, -⟩ := idx_facts t
  unfold iblk0
  rw [View.read_apply]
  show (V c main_arg0 : S100000x128.Idx → EReal) _ = _
  refine congrArg _ ?_
  funext a
  apply Fin.ext
  match a with
  | ⟨0, _⟩ => show win0_0.index t (0 : Fin 2) * 5000 + 1 * p.val = P.val; rw [e0, hP]; omega
  | ⟨1, _⟩ => show win0_0.index t (1 : Fin 2) * 128 + 1 * k.val = k.val; rw [e1]; omega

/-- Row `p` of tile `t`'s block of the means is row 5000·t + p of the array. -/
theorem rows_mean (c : Dev nD) (t : Fin cfg0.N) (p : Fin 5000) (k : Fin 128) (P : Fin 100000) (hP : P.val = t.val * 5000 + p.val) :
    (iblk0 V c 1 t : Vec Ideal S5000x128 .f32) (ix2 p k) = (V c main_v22 : S100000x128.Idx → EReal) (ix2 P k) := by
  obtain ⟨-, -, e0, e1, -⟩ := idx_facts t
  unfold iblk0
  rw [View.read_apply]
  show (V c main_v22 : S100000x128.Idx → EReal) _ = _
  refine congrArg _ ?_
  funext a
  apply Fin.ext
  match a with
  | ⟨0, _⟩ => show win0_1.index t (0 : Fin 2) * 5000 + 1 * p.val = P.val; rw [e0, hP]; omega
  | ⟨1, _⟩ => show win0_1.index t (1 : Fin 2) * 128 + 1 * k.val = k.val; rw [e1]; omega

/-- Every tile's block of the first matrix is the whole matrix. -/
theorem whole_wl (c : Dev nD) (t : Fin cfg0.N) : (iblk0 V c 2 t : Vec Ideal S128x128 .f32) = (V c main_v23 : S128x128.Idx → EReal) := by
  obtain ⟨-, -, -, -, e0, e1, -⟩ := idx_facts t
  funext x
  unfold iblk0
  rw [View.read_apply]
  show (V c main_v23 : S128x128.Idx → EReal) _ = _
  refine congrArg _ ?_
  funext a
  apply Fin.ext
  match a with
  | ⟨0, _⟩ => show win0_2.index t (0 : Fin 2) * 128 + 1 * (x 0).val = (x 0).val; rw [e0]; omega
  | ⟨1, _⟩ => show win0_2.index t (1 : Fin 2) * 128 + 1 * (x 1).val = (x 1).val; rw [e1]; omega

/-- Every tile's block of the bias is the whole bias. -/
theorem whole_b (c : Dev nD) (t : Fin cfg0.N) : (iblk0 V c 3 t : Vec Ideal S128 .f32) = (V c main_arg3 : S128.Idx → EReal) := by
  obtain ⟨-, -, -, -, -, -, e0, -⟩ := idx_facts t
  funext x
  unfold iblk0
  rw [View.read_apply]
  show (V c main_arg3 : S128.Idx → EReal) _ = _
  refine congrArg _ ?_
  funext a
  apply Fin.ext
  match a with
  | ⟨0, _⟩ => show win0_3.index t (0 : Fin 1) * 128 + 1 * (x 0).val = (x 0).val; rw [e0]; omega

/-- Every tile's block of the second matrix is the whole matrix. -/
theorem whole_wr (c : Dev nD) (t : Fin cfg0.N) : (iblk0 V c 4 t : Vec Ideal S128x128 .f32) = (V c main_v24 : S128x128.Idx → EReal) := by
  obtain ⟨-, -, -, -, -, -, -, e0, e1, -⟩ := idx_facts t
  funext x
  unfold iblk0
  rw [View.read_apply]
  show (V c main_v24 : S128x128.Idx → EReal) _ = _
  refine congrArg _ ?_
  funext a
  apply Fin.ext
  match a with
  | ⟨0, _⟩ => show win0_4.index t (0 : Fin 2) * 128 + 1 * (x 0).val = (x 0).val; rw [e0]; omega
  | ⟨1, _⟩ => show win0_4.index t (1 : Fin 2) * 128 + 1 * (x 1).val = (x 1).val; rw [e1]; omega

/-- The body's stored value at an element of tile `t` is the whole layer at the element's place in the array. -/
theorem point_eq (c : Dev nD) (t : Fin cfg0.N) (p : Fin 5000) (q : Fin 128) (P : Fin 100000) (hP : P.val = t.val * 5000 + p.val) :
    k0_pay1 (F := Ideal) (iblk0 V c 0 t) (iblk0 V c 1 t) (iblk0 V c 2 t) (iblk0 V c 4 t) (iblk0 V c 3 t) (ix2 p q)
      = G V c (ix2 P q) := by
  refine (pay_apply _ _ _ _ _ p q).trans ?_
  rw [whole_wl V c t, whole_wr V c t, whole_b V c t]
  refine congrArg (fun z => max z (Ideal.ofBits .f32 0x00000000#32)) ?_
  exact DenseLayer.pre_rows 5000 _ _ _ _ _ _ _ p P q (fun k => rows_x V c t p k P hP) (fun k => rows_mean V c t p k P hP)

/-- The element of tile `t` at block index `j` sits at row 5000·t + (row of `j`), same column, of the array; the body's stored
    value there is the whole layer at that place. -/
theorem elem_eq (c : Dev nD) (t : Fin cfg0.N) (j : S5000x128.Idx) :
    k0_pay1 (F := Ideal) (iblk0 V c 0 t) (iblk0 V c 1 t) (iblk0 V c 2 t) (iblk0 V c 4 t) (iblk0 V c 3 t) j
      = G V c (((cfg0.win 5).blk t).view.emb j) := by
  obtain ⟨-, -, -, -, -, -, -, -, -, e0, e1⟩ := idx_facts t
  have ht : t.val < 20 := lt_of_lt_of_eq t.isLt N_0
  obtain ⟨p, q, rfl⟩ : ∃ (p : Fin 5000) (q : Fin 128), j = ix2 p q := ⟨j 0, j 1, eq_ix2 j⟩
  have hp : p.val < 5000 := p.isLt
  have hemb : ((cfg0.win 5).blk t).view.emb (ix2 p q) = ix2 (⟨t.val * 5000 + p.val, by omega⟩ : Fin 100000) q := by
    funext a
    apply Fin.ext
    match a with
    | ⟨0, _⟩ => show win0_5.index t (0 : Fin 2) * 5000 + 1 * p.val = t.val * 5000 + p.val; rw [e0]; omega
    | ⟨1, _⟩ => show win0_5.index t (1 : Fin 2) * 128 + 1 * q.val = q.val; rw [e1]; omega
  rw [hemb]
  exact point_eq V c t p q _ rfl

/-- What tile `t` writes back is block `t` of the whole layer. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz2]
  simp only [View.ld_unit_zero (S := S5000x128) hz2, View.ld_unit_zero (S := S128x128) hz2, View.ld_unit_zero (S := S128) hz1]
  funext j
  exact elem_eq V c t j

/-- Every row of the array lies in the tile numbered by its quotient by 5000. -/
theorem cover (i : S100000x128.Idx) :
    ∃ t : Fin cfg0.N, (cfg0.win 5).flush t = true ∧ i ∈ ((cfg0.win 5).blk t).view.set := by
  have h0 : (i 0).val < 100000 := (i 0).isLt
  have h1 : (i 1).val < 128 := (i 1).isLt
  have hN : cfg0.N = 20 := N_0
  let t : Fin cfg0.N := ⟨(i 0).val / 5000, by rw [hN]; omega⟩
  obtain ⟨-, -, -, -, -, -, -, -, -, e0, e1⟩ := idx_facts t
  refine ⟨t, flush0_5 t, ?_⟩
  show i ∈ ((View.whole main_v25).slice (win0_5.rect t)).set
  rw [View.set_slice_whole, Rect.mem_set_unit]
  intro a
  match a with
  | ⟨0, _⟩ =>
    show win0_5.index t (0 : Fin 2) * 5000 ≤ (i 0).val ∧ (i 0).val < win0_5.index t (0 : Fin 2) * 5000 + 5000
    rw [e0]; show (i 0).val / 5000 * 5000 ≤ (i 0).val ∧ (i 0).val < (i 0).val / 5000 * 5000 + 5000; omega
  | ⟨1, _⟩ =>
    show win0_5.index t (1 : Fin 2) * 128 ≤ (i 1).val ∧ (i 1).val < win0_5.index t (1 : Fin 2) * 128 + 128
    rw [e1]; omega

/-- THE REGION'S OUTPUT ARRAY after its 20 tiles: the layer of the five arrays as the region found them. -/
theorem final (c : Dev nD) : (dat0 V c).arrAt 5 cfg0.N = G V c :=
  (dat0 V c).arrAt_eq_of_cover 5 (G V c) (fun t _ => flushed_eq V c t) cover

end Cert.KernelIdeal.Region0

end
-- ==== Proof.Region1.lean ====
/-
  Region 1 of the tiled program: one layer's dense part over 20 tiles of 5000 rows.

  Whatever the five arrays the region reads hold when it is entered (`V`), its output array ends holding the layer
  (clipped below at zero) of those whole arrays. A tile `t` reads rows 5000·t … 5000·t + 4999 of the features and of the
  means, and the whole of the two matrices and the bias; an element of a layer depends on one row of the features and one
  row of the means, so the tile's result is rows 5000·t … of the whole layer; the 20 tiles cover the 100000 rows.
-/
import proofs.«103532_j33801392619948_1_alg».proof.Proof.Gen.KernelIdeal.Frame
import proofs.«103532_j33801392619948_1_alg».proof.Proof.DenseLayer
import Idealize.ShloMosaic.Lib.Pipeline.Value
import Idealize.ShloMosaic.Lib.ValueIdx

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The layer of the five arrays as the region finds them. -/
abbrev G (c : Dev nD) : S100000x128.Idx → EReal :=
  DenseLayer.relu 100000 (V c main_v25) (V c main_v44) (V c main_v45) (V c main_v46) (V c main_arg6)

/-- The body's stored value at row `p`, column `q` of a tile, from the tile's five blocks. -/
theorem pay_apply (x0 x1 : FVec Ideal S5000x128 .f32) (x2 x4 : FVec Ideal S128x128 .f32) (x3 : FVec Ideal S128 .f32)
    (p : Fin 5000) (q : Fin 128) :
    k1_pay1 (F := Ideal) x0 x1 x2 x4 x3 (ix2 p q) = max (DenseLayer.pre 5000 x0 x1 x2 x4 x3 p q) (Ideal.ofBits .f32 0x00000000#32) := by
  unfold k1_pay1
  simp only [shapeCast_self]
  exact congrArg (fun z => max z (Ideal.ofBits .f32 0x00000000#32))
    (DenseLayer.tiled_apply 5000 x0 x1 x2 x4 x3 bitsLt_bf16_f32 shapeCasts_S128_S1x128 broadcasts_S1x128_S5000x128 p q)

/-- The printed index maps over the 20 tiles: the row windows move with the tile, the others stay at the origin. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of tile `t`'s block of the features is row 5000·t + p of the array. -/
theorem rows_x (c : Dev nD) (t : Fin cfg1.N) (p : Fin 5000) (k : Fin 128) (P : Fin 100000) (hP : P.val = t.val * 5000 + p.val) :
    (iblk1 V c 0 t : Vec Ideal S5000x128 .f32) (ix2 p k) = (V c main_v25 : S100000x128.Idx → EReal) (ix2 P k) := by
  obtain ⟨e0, e1, -⟩ := idx_facts t
  unfold iblk1
  rw [View.read_apply]
  show (V c main_v25 : S100000x128.Idx → EReal) _ = _
  refine congrArg _ ?_
  funext a
  apply Fin.ext
  match a with
  | ⟨0, _⟩ => show win1_0.index t (0 : Fin 2) * 5000 + 1 * p.val = P.val; rw [e0, hP]; omega
  | ⟨1, _⟩ => show win1_0.index t (1 : Fin 2) * 128 + 1 * k.val = k.val; rw [e1]; omega

/-- Row `p` of tile `t`'s block of the means is row 5000·t + p of the array. -/
theorem rows_mean (c : Dev nD) (t : Fin cfg1.N) (p : Fin 5000) (k : Fin 128) (P : Fin 100000) (hP : P.val = t.val * 5000 + p.val) :
    (iblk1 V c 1 t : Vec Ideal S5000x128 .f32) (ix2 p k) = (V c main_v44 : S100000x128.Idx → EReal) (ix2 P k) := by
  obtain ⟨-, -, e0, e1, -⟩ := idx_facts t
  unfold iblk1
  rw [View.read_apply]
  show (V c main_v44 : S100000x128.Idx → EReal) _ = _
  refine congrArg _ ?_
  funext a
  apply Fin.ext
  match a with
  | ⟨0, _⟩ => show win1_1.index t (0 : Fin 2) * 5000 + 1 * p.val = P.val; rw [e0, hP]; omega
  | ⟨1, _⟩ => show win1_1.index t (1 : Fin 2) * 128 + 1 * k.val = k.val; rw [e1]; omega

/-- Every tile's block of the first matrix is the whole matrix. -/
theorem whole_wl (c : Dev nD) (t : Fin cfg1.N) : (iblk1 V c 2 t : Vec Ideal S128x128 .f32) = (V c main_v45 : S128x128.Idx → EReal) := by
  obtain ⟨-, -, -, -, e0, e1, -⟩ := idx_facts t
  funext x
  unfold iblk1
  rw [View.read_apply]
  show (V c main_v45 : S128x128.Idx → EReal) _ = _
  refine congrArg _ ?_
  funext a
  apply Fin.ext
  match a with
  | ⟨0, _⟩ => show win1_2.index t (0 : Fin 2) * 128 + 1 * (x 0).val = (x 0).val; rw [e0]; omega
  | ⟨1, _⟩ => show win1_2.index t (1 : Fin 2) * 128 + 1 * (x 1).val = (x 1).val; rw [e1]; omega

/-- Every tile's block of the bias is the whole bias. -/
theorem whole_b (c : Dev nD) (t : Fin cfg1.N) : (iblk1 V c 3 t : Vec Ideal S128 .f32) = (V c main_arg6 : S128.Idx → EReal) := by
  obtain ⟨-, -, -, -, -, -, e0, -⟩ := idx_facts t
  funext x
  unfold iblk1
  rw [View.read_apply]
  show (V c main_arg6 : S128.Idx → EReal) _ = _
  refine congrArg _ ?_
  funext a
  apply Fin.ext
  match a with
  | ⟨0, _⟩ => show win1_3.index t (0 : Fin 1) * 128 + 1 * (x 0).val = (x 0).val; rw [e0]; omega

/-- Every tile's block of the second matrix is the whole matrix. -/
theorem whole_wr (c : Dev nD) (t : Fin cfg1.N) : (iblk1 V c 4 t : Vec Ideal S128x128 .f32) = (V c main_v46 : S128x128.Idx → EReal) := by
  obtain ⟨-, -, -, -, -, -, -, e0, e1, -⟩ := idx_facts t
  funext x
  unfold iblk1
  rw [View.read_apply]
  show (V c main_v46 : S128x128.Idx → EReal) _ = _
  refine congrArg _ ?_
  funext a
  apply Fin.ext
  match a with
  | ⟨0, _⟩ => show win1_4.index t (0 : Fin 2) * 128 + 1 * (x 0).val = (x 0).val; rw [e0]; omega
  | ⟨1, _⟩ => show win1_4.index t (1 : Fin 2) * 128 + 1 * (x 1).val = (x 1).val; rw [e1]; omega

/-- The body's stored value at an element of tile `t` is the whole layer at the element's place in the array. -/
theorem point_eq (c : Dev nD) (t : Fin cfg1.N) (p : Fin 5000) (q : Fin 128) (P : Fin 100000) (hP : P.val = t.val * 5000 + p.val) :
    k1_pay1 (F := Ideal) (iblk1 V c 0 t) (iblk1 V c 1 t) (iblk1 V c 2 t) (iblk1 V c 4 t) (iblk1 V c 3 t) (ix2 p q)
      = G V c (ix2 P q) := by
  refine (pay_apply _ _ _ _ _ p q).trans ?_
  rw [whole_wl V c t, whole_wr V c t, whole_b V c t]
  refine congrArg (fun z => max z (Ideal.ofBits .f32 0x00000000#32)) ?_
  exact DenseLayer.pre_rows 5000 _ _ _ _ _ _ _ p P q (fun k => rows_x V c t p k P hP) (fun k => rows_mean V c t p k P hP)

/-- The element of tile `t` at block index `j` sits at row 5000·t + (row of `j`), same column, of the array; the body's stored
    value there is the whole layer at that place. -/
theorem elem_eq (c : Dev nD) (t : Fin cfg1.N) (j : S5000x128.Idx) :
    k1_pay1 (F := Ideal) (iblk1 V c 0 t) (iblk1 V c 1 t) (iblk1 V c 2 t) (iblk1 V c 4 t) (iblk1 V c 3 t) j
      = G V c (((cfg1.win 5).blk t).view.emb j) := by
  obtain ⟨-, -, -, -, -, -, -, -, -, e0, e1⟩ := idx_facts t
  have ht : t.val < 20 := lt_of_lt_of_eq t.isLt N_1
  obtain ⟨p, q, rfl⟩ : ∃ (p : Fin 5000) (q : Fin 128), j = ix2 p q := ⟨j 0, j 1, eq_ix2 j⟩
  have hp : p.val < 5000 := p.isLt
  have hemb : ((cfg1.win 5).blk t).view.emb (ix2 p q) = ix2 (⟨t.val * 5000 + p.val, by omega⟩ : Fin 100000) q := by
    funext a
    apply Fin.ext
    match a with
    | ⟨0, _⟩ => show win1_5.index t (0 : Fin 2) * 5000 + 1 * p.val = t.val * 5000 + p.val; rw [e0]; omega
    | ⟨1, _⟩ => show win1_5.index t (1 : Fin 2) * 128 + 1 * q.val = q.val; rw [e1]; omega
  rw [hemb]
  exact point_eq V c t p q _ rfl

/-- What tile `t` writes back is block `t` of the whole layer. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz2]
  simp only [View.ld_unit_zero (S := S5000x128) hz2, View.ld_unit_zero (S := S128x128) hz2, View.ld_unit_zero (S := S128) hz1]
  funext j
  exact elem_eq V c t j

/-- Every row of the array lies in the tile numbered by its quotient by 5000. -/
theorem cover (i : S100000x128.Idx) :
    ∃ t : Fin cfg1.N, (cfg1.win 5).flush t = true ∧ i ∈ ((cfg1.win 5).blk t).view.set := by
  have h0 : (i 0).val < 100000 := (i 0).isLt
  have h1 : (i 1).val < 128 := (i 1).isLt
  have hN : cfg1.N = 20 := N_1
  let t : Fin cfg1.N := ⟨(i 0).val / 5000, by rw [hN]; omega⟩
  obtain ⟨-, -, -, -, -, -, -, -, -, e0, e1⟩ := idx_facts t
  refine ⟨t, flush1_5 t, ?_⟩
  show i ∈ ((View.whole main_v47).slice (win1_5.rect t)).set
  rw [View.set_slice_whole, Rect.mem_set_unit]
  intro a
  match a with
  | ⟨0, _⟩ =>
    show win1_5.index t (0 : Fin 2) * 5000 ≤ (i 0).val ∧ (i 0).val < win1_5.index t (0 : Fin 2) * 5000 + 5000
    rw [e0]; show (i 0).val / 5000 * 5000 ≤ (i 0).val ∧ (i 0).val < (i 0).val / 5000 * 5000 + 5000; omega
  | ⟨1, _⟩ =>
    show win1_5.index t (1 : Fin 2) * 128 ≤ (i 1).val ∧ (i 1).val < win1_5.index t (1 : Fin 2) * 128 + 128
    rw [e1]; omega

/-- THE REGION'S OUTPUT ARRAY after its 20 tiles: the layer of the five arrays as the region found them. -/
theorem final (c : Dev nD) : (dat1 V c).arrAt 5 cfg1.N = G V c :=
  (dat1 V c).arrAt_eq_of_cover 5 (G V c) (fun t _ => flushed_eq V c t) cover

end Cert.KernelIdeal.Region1

end
-- ==== Proof.Region2.lean ====
/-
  Region 2 of the tiled program: one layer's dense part over 20 tiles of 5000 rows.

  Whatever the five arrays the region reads hold when it is entered (`V`), its output array ends holding the layer
  (with no nonlinearity) of those whole arrays. A tile `t` reads rows 5000·t … 5000·t + 4999 of the features and of the
  means, and the whole of the two matrices and the bias; an element of a layer depends on one row of the features and one
  row of the means, so the tile's result is rows 5000·t … of the whole layer; the 20 tiles cover the 100000 rows.
-/
import proofs.«103532_j33801392619948_1_alg».proof.Proof.Gen.KernelIdeal.Frame
import proofs.«103532_j33801392619948_1_alg».proof.Proof.DenseLayer
import Idealize.ShloMosaic.Lib.Pipeline.Value
import Idealize.ShloMosaic.Lib.ValueIdx

set_option maxRecDepth 16384

noncomputable section

namespace Cert.KernelIdeal.Region2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The layer of the five arrays as the region finds them. -/
abbrev G (c : Dev nD) : S100000x128.Idx → EReal :=
  DenseLayer.lin 100000 (V c main_v47) (V c main_v66) (V c main_v67) (V c main_v68) (V c main_arg9)

/-- The body's stored value at row `p`, column `q` of a tile, from the tile's five blocks. -/
theorem pay_apply (x0 x1 : FVec Ideal S5000x128 .f32) (x2 x4 : FVec Ideal S128x128 .f32) (x3 : FVec Ideal S128 .f32)
    (p : Fin 5000) (q : Fin 128) :
    k2_pay1 (F := Ideal) x0 x1 x2 x4 x3 (ix2 p q) = DenseLayer.pre 5000 x0 x1 x2 x4 x3 p q := by
  unfold k2_pay1
  simp only [shapeCast_self]
  exact DenseLayer.tiled_apply 5000 x0 x1 x2 x4 x3 bitsLt_bf16_f32 shapeCasts_S128_S1x128 broadcasts_S1x128_S5000x128 p q

/-- The printed index maps over the 20 tiles: the row windows move with the tile, the others stay at the origin. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row `p` of tile `t`'s block of the features is row 5000·t + p of the array. -/
theorem rows_x (c : Dev nD) (t : Fin cfg2.N) (p : Fin 5000) (k : Fin 128) (P : Fin 100000) (hP : P.val = t.val * 5000 + p.val) :
    (iblk2 V c 0 t : Vec Ideal S5000x128 .f32) (ix2 p k) = (V c main_v47 : S100000x128.Idx → EReal) (ix2 P k) := by
  obtain ⟨e0, e1, -⟩ := idx_facts t
  unfold iblk2
  rw [View.read_apply]
  show (V c main_v47 : S100000x128.Idx → EReal) _ = _
  refine congrArg _ ?_
  funext a
  apply Fin.ext
  match a with
  | ⟨0, _⟩ => show win2_0.index t (0 : Fin 2) * 5000 + 1 * p.val = P.val; rw [e0, hP]; omega
  | ⟨1, _⟩ => show win2_0.index t (1 : Fin 2) * 128 + 1 * k.val = k.val; rw [e1]; omega

/-- Row `p` of tile `t`'s block of the means is row 5000·t + p of the array. -/
theorem rows_mean (c : Dev nD) (t : Fin cfg2.N) (p : Fin 5000) (k : Fin 128) (P : Fin 100000) (hP : P.val = t.val * 5000 + p.val) :
    (iblk2 V c 1 t : Vec Ideal S5000x128 .f32) (ix2 p k) = (V c main_v66 : S100000x128.Idx → EReal) (ix2 P k) := by
  obtain ⟨-, -, e0, e1, -⟩ := idx_facts t
  unfold iblk2
  rw [View.read_apply]
  show (V c main_v66 : S100000x128.Idx → EReal) _ = _
  refine congrArg _ ?_
  funext a
  apply Fin.ext
  match a with
  | ⟨0, _⟩ => show win2_1.index t (0 : Fin 2) * 5000 + 1 * p.val = P.val; rw [e0, hP]; omega
  | ⟨1, _⟩ => show win2_1.index t (1 : Fin 2) * 128 + 1 * k.val = k.val; rw [e1]; omega

/-- Every tile's block of the first matrix is the whole matrix. -/
theorem whole_wl (c : Dev nD) (t : Fin cfg2.N) : (iblk2 V c 2 t : Vec Ideal S128x128 .f32) = (V c main_v67 : S128x128.Idx → EReal) := by
  obtain ⟨-, -, -, -, e0, e1, -⟩ := idx_facts t
  funext x
  unfold iblk2
  rw [View.read_apply]
  show (V c main_v67 : S128x128.Idx → EReal) _ = _
  refine congrArg _ ?_
  funext a
  apply Fin.ext
  match a with
  | ⟨0, _⟩ => show win2_2.index t (0 : Fin 2) * 128 + 1 * (x 0).val = (x 0).val; rw [e0]; omega
  | ⟨1, _⟩ => show win2_2.index t (1 : Fin 2) * 128 + 1 * (x 1).val = (x 1).val; rw [e1]; omega

/-- Every tile's block of the bias is the whole bias. -/
theorem whole_b (c : Dev nD) (t : Fin cfg2.N) : (iblk2 V c 3 t : Vec Ideal S128 .f32) = (V c main_arg9 : S128.Idx → EReal) := by
  obtain ⟨-, -, -, -, -, -, e0, -⟩ := idx_facts t
  funext x
  unfold iblk2
  rw [View.read_apply]
  show (V c main_arg9 : S128.Idx → EReal) _ = _
  refine congrArg _ ?_
  funext a
  apply Fin.ext
  match a with
  | ⟨0, _⟩ => show win2_3.index t (0 : Fin 1) * 128 + 1 * (x 0).val = (x 0).val; rw [e0]; omega

/-- Every tile's block of the second matrix is the whole matrix. -/
theorem whole_wr (c : Dev nD) (t : Fin cfg2.N) : (iblk2 V c 4 t : Vec Ideal S128x128 .f32) = (V c main_v68 : S128x128.Idx → EReal) := by
  obtain ⟨-, -, -, -, -, -, -, e0, e1, -⟩ := idx_facts t
  funext x
  unfold iblk2
  rw [View.read_apply]
  show (V c main_v68 : S128x128.Idx → EReal) _ = _
  refine congrArg _ ?_
  funext a
  apply Fin.ext
  match a with
  | ⟨0, _⟩ => show win2_4.index t (0 : Fin 2) * 128 + 1 * (x 0).val = (x 0).val; rw [e0]; omega
  | ⟨1, _⟩ => show win2_4.index t (1 : Fin 2) * 128 + 1 * (x 1).val = (x 1).val; rw [e1]; omega

/-- The body's stored value at an element of tile `t` is the whole layer at the element's place in the array. -/
theorem point_eq (c : Dev nD) (t : Fin cfg2.N) (p : Fin 5000) (q : Fin 128) (P : Fin 100000) (hP : P.val = t.val * 5000 + p.val) :
    k2_pay1 (F := Ideal) (iblk2 V c 0 t) (iblk2 V c 1 t) (iblk2 V c 2 t) (iblk2 V c 4 t) (iblk2 V c 3 t) (ix2 p q)
      = G V c (ix2 P q) := by
  refine (pay_apply _ _ _ _ _ p q).trans ?_
  rw [whole_wl V c t, whole_wr V c t, whole_b V c t]
  exact DenseLayer.pre_rows 5000 _ _ _ _ _ _ _ p P q (fun k => rows_x V c t p k P hP) (fun k => rows_mean V c t p k P hP)

/-- The element of tile `t` at block index `j` sits at row 5000·t + (row of `j`), same column, of the array; the body's stored
    value there is the whole layer at that place. -/
theorem elem_eq (c : Dev nD) (t : Fin cfg2.N) (j : S5000x128.Idx) :
    k2_pay1 (F := Ideal) (iblk2 V c 0 t) (iblk2 V c 1 t) (iblk2 V c 2 t) (iblk2 V c 4 t) (iblk2 V c 3 t) j
      = G V c (((cfg2.win 5).blk t).view.emb j) := by
  obtain ⟨-, -, -, -, -, -, -, -, -, e0, e1⟩ := idx_facts t
  have ht : t.val < 20 := lt_of_lt_of_eq t.isLt N_2
  obtain ⟨p, q, rfl⟩ : ∃ (p : Fin 5000) (q : Fin 128), j = ix2 p q := ⟨j 0, j 1, eq_ix2 j⟩
  have hp : p.val < 5000 := p.isLt
  have hemb : ((cfg2.win 5).blk t).view.emb (ix2 p q) = ix2 (⟨t.val * 5000 + p.val, by omega⟩ : Fin 100000) q := by
    funext a
    apply Fin.ext
    match a with
    | ⟨0, _⟩ => show win2_5.index t (0 : Fin 2) * 5000 + 1 * p.val = t.val * 5000 + p.val; rw [e0]; omega
    | ⟨1, _⟩ => show win2_5.index t (1 : Fin 2) * 128 + 1 * q.val = q.val; rw [e1]; omega
  rw [hemb]
  exact point_eq V c t p q _ rfl

/-- What tile `t` writes back is block `t` of the whole layer. -/
theorem flushed_eq (c : Dev nD) (t : Fin cfg2.N) :
    (dat2 V c).flushed 5 t = ((cfg2.win 5).blk t).view.read (Elt Ideal) (G V c) := by
  show (cfg2.win 5).cut (grid2.coords t) ((dat2 V c).after 5 t) = _
  rw [after2_5]
  unfold out2_5
  rw [View.canon_unit_zero hz2]
  simp only [View.ld_unit_zero (S := S5000x128) hz2, View.ld_unit_zero (S := S128x128) hz2, View.ld_unit_zero (S := S128) hz1]
  funext j
  exact elem_eq V c t j

/-- Every row of the array lies in the tile numbered by its quotient by 5000. -/
theorem cover (i : S100000x128.Idx) :
    ∃ t : Fin cfg2.N, (cfg2.win 5).flush t = true ∧ i ∈ ((cfg2.win 5).blk t).view.set := by
  have h0 : (i 0).val < 100000 := (i 0).isLt
  have h1 : (i 1).val < 128 := (i 1).isLt
  have hN : cfg2.N = 20 := N_2
  let t : Fin cfg2.N := ⟨(i 0).val / 5000, by rw [hN]; omega⟩
  obtain ⟨-, -, -, -, -, -, -, -, -, e0, e1⟩ := idx_facts t
  refine ⟨t, flush2_5 t, ?_⟩
  show i ∈ ((View.whole main_v69).slice (win2_5.rect t)).set
  rw [View.set_slice_whole, Rect.mem_set_unit]
  intro a
  match a with
  | ⟨0, _⟩ =>
    show win2_5.index t (0 : Fin 2) * 5000 ≤ (i 0).val ∧ (i 0).val < win2_5.index t (0 : Fin 2) * 5000 + 5000
    rw [e0]; show (i 0).val / 5000 * 5000 ≤ (i 0).val ∧ (i 0).val < (i 0).val / 5000 * 5000 + 5000; omega
  | ⟨1, _⟩ =>
    show win2_5.index t (1 : Fin 2) * 128 ≤ (i 1).val ∧ (i 1).val < win2_5.index t (1 : Fin 2) * 128 + 128
    rw [e1]; omega

/-- THE REGION'S OUTPUT ARRAY after its 20 tiles: the layer of the five arrays as the region found them. -/
theorem final (c : Dev nD) : (dat2 V c).arrAt 5 cfg2.N = G V c :=
  (dat2 V c).arrAt_eq_of_cover 5 (G V c) (fun t _ => flushed_eq V c t) cover

end Cert.KernelIdeal.Region2

end
-- ==== Proof.HostStretch.lean ====
/-
  What each stretch of host operations of the tiled program leaves in the buffers that matter later, from ANY contents
  `W` at its start.

  The first stretch slices the sources and destinations out of the edge list, applies the mean chain (gather rows by
  source, sum into destination rows, divide by the clipped in-degree) to the input features, and transposes the first
  layer's two matrices. The second and third stretches apply the same chain to the previous region's output — reading the
  sources and destinations the first stretch left — and transpose their layer's matrices. The chain is spelt as the plain
  program's stage function of the features and the edge list, so that it is one name on both sides and is never opened.
  No stretch writes an argument, the sliced sources and destinations, or an earlier region's output.
-/
import proofs.«103532_j33801392619948_1_alg».proof.Proof.Gen.KernelIdeal.Launch
import proofs.«103532_j33801392619948_1_alg».proof.Proof.Gen.ReferenceIdeal.Read
import Idealize.ShloMosaic.Lib.StableHlo.Run

set_option maxRecDepth 16384

noncomputable section

namespace Cert.KernelIdeal.Stretch

open Cert.KernelIdeal Cert.KernelIdeal.Gen
open Idealize.ShloMosaic Idealize.ShloMosaic.TcCoe Idealize.SL.Sem Idealize.ShloMosaic.StableHlo

variable (W : Valuation τ sig (Elt Ideal))

/-! ## The stretch before region 0 -/

set_option maxHeartbeats 4000000 in
/-- The mean chain applied to the input features. -/
theorem s0_mean : after (hostOps0 (F := Ideal)) W (Proc.devRef .tc main_v22)
    = Cert.ReferenceIdeal.Read.val_main_v22 (F := Ideal) (W (Proc.devRef .tc main_arg0)) (W (Proc.devRef .tc main_arg1)) := by
  simp only [hostOps0]
  after_results_simp
  all_goals rfl

/-- The sources, sliced out of the edge list. -/
theorem s0_src : after (hostOps0 (F := Ideal)) W (Proc.devRef .tc main_v1)
    = Cert.ReferenceIdeal.Read.val_main_v1 (F := Ideal) (W (Proc.devRef .tc main_arg1)) := by
  simp only [hostOps0]
  after_results
  all_goals rfl

/-- The destinations, sliced out of the edge list. -/
theorem s0_dst : after (hostOps0 (F := Ideal)) W (Proc.devRef .tc main_v3)
    = Cert.ReferenceIdeal.Read.val_main_v3 (F := Ideal) (W (Proc.devRef .tc main_arg1)) := by
  simp only [hostOps0]
  after_results
  all_goals rfl

/-- The first matrix, transposed. -/
theorem s0_wl : after (hostOps0 (F := Ideal)) W (Proc.devRef .tc main_v23)
    = Cert.ReferenceIdeal.Read.val_main_v23 (F := Ideal) (W (Proc.devRef .tc main_arg2)) := by
  simp only [hostOps0]
  after_results
  all_goals rfl

/-- The second matrix, transposed. -/
theorem s0_wr : after (hostOps0 (F := Ideal)) W (Proc.devRef .tc main_v24)
    = Cert.ReferenceIdeal.Read.val_main_v23 (F := Ideal) (W (Proc.devRef .tc main_arg4)) := by
  simp only [hostOps0]
  after_results
  all_goals rfl

theorem s0_keep_main_arg0 : after (hostOps0 (F := Ideal)) W (Proc.devRef .tc main_arg0) = W (Proc.devRef .tc main_arg0) := by
  simp only [hostOps0]
  after_results
  all_goals rfl

theorem s0_keep_main_arg3 : after (hostOps0 (F := Ideal)) W (Proc.devRef .tc main_arg3) = W (Proc.devRef .tc main_arg3) := by
  simp only [hostOps0]
  after_results
  all_goals rfl

theorem s0_keep_main_arg5 : after (hostOps0 (F := Ideal)) W (Proc.devRef .tc main_arg5) = W (Proc.devRef .tc main_arg5) := by
  simp only [hostOps0]
  after_results
  all_goals rfl

theorem s0_keep_main_arg6 : after (hostOps0 (F := Ideal)) W (Proc.devRef .tc main_arg6) = W (Proc.devRef .tc main_arg6) := by
  simp only [hostOps0]
  after_results
  all_goals rfl

theorem s0_keep_main_arg7 : after (hostOps0 (F := Ideal)) W (Proc.devRef .tc main_arg7) = W (Proc.devRef .tc main_arg7) := by
  simp only [hostOps0]
  after_results
  all_goals rfl

theorem s0_keep_main_arg8 : after (hostOps0 (F := Ideal)) W (Proc.devRef .tc main_arg8) = W (Proc.devRef .tc main_arg8) := by
  simp only [hostOps0]
  after_results
  all_goals rfl

theorem s0_keep_main_arg9 : after (hostOps0 (F := Ideal)) W (Proc.devRef .tc main_arg9) = W (Proc.devRef .tc main_arg9) := by
  simp only [hostOps0]
  after_results
  all_goals rfl

theorem s0_keep_main_arg10 : after (hostOps0 (F := Ideal)) W (Proc.devRef .tc main_arg10) = W (Proc.devRef .tc main_arg10) := by
  simp only [hostOps0]
  after_results
  all_goals rfl

/-! ## The stretch before region 1 -/

set_option maxHeartbeats 4000000 in
/-- The mean chain applied to the previous region's output: the sources and destinations were sliced out of the edge
    list by the first stretch and are read back here. -/
theorem s1_mean (a1 : IVec S2x1600000 32)
    (hsrc : W (Proc.devRef .tc main_v1) = Cert.ReferenceIdeal.Read.val_main_v1 (F := Ideal) a1)
    (hdst : W (Proc.devRef .tc main_v3) = Cert.ReferenceIdeal.Read.val_main_v3 (F := Ideal) a1) :
    after (hostOps1 (F := Ideal)) W (Proc.devRef .tc main_v44)
      = Cert.ReferenceIdeal.Read.val_main_v22 (F := Ideal) (W (Proc.devRef .tc main_v25)) a1 := by
  simp only [hostOps1]
  after_results_simp
  rw [hsrc, hdst]
  rfl

/-- The first matrix, transposed. -/
theorem s1_wl : after (hostOps1 (F := Ideal)) W (Proc.devRef .tc main_v45)
    = Cert.ReferenceIdeal.Read.val_main_v23 (F := Ideal) (W (Proc.devRef .tc main_arg5)) := by
  simp only [hostOps1]
  after_results
  all_goals rfl

/-- The second matrix, transposed. -/
theorem s1_wr : after (hostOps1 (F := Ideal)) W (Proc.devRef .tc main_v46)
    = Cert.ReferenceIdeal.Read.val_main_v23 (F := Ideal) (W (Proc.devRef .tc main_arg7)) := by
  simp only [hostOps1]
  after_results
  all_goals rfl

theorem s1_keep_main_v25 : after (hostOps1 (F := Ideal)) W (Proc.devRef .tc main_v25) = W (Proc.devRef .tc main_v25) := by
  simp only [hostOps1]
  after_results
  all_goals rfl

theorem s1_keep_main_arg6 : after (hostOps1 (F := Ideal)) W (Proc.devRef .tc main_arg6) = W (Proc.devRef .tc main_arg6) := by
  simp only [hostOps1]
  after_results
  all_goals rfl

theorem s1_keep_main_v1 : after (hostOps1 (F := Ideal)) W (Proc.devRef .tc main_v1) = W (Proc.devRef .tc main_v1) := by
  simp only [hostOps1]
  after_results
  all_goals rfl

theorem s1_keep_main_v3 : after (hostOps1 (F := Ideal)) W (Proc.devRef .tc main_v3) = W (Proc.devRef .tc main_v3) := by
  simp only [hostOps1]
  after_results
  all_goals rfl

theorem s1_keep_main_arg8 : after (hostOps1 (F := Ideal)) W (Proc.devRef .tc main_arg8) = W (Proc.devRef .tc main_arg8) := by
  simp only [hostOps1]
  after_results
  all_goals rfl

theorem s1_keep_main_arg9 : after (hostOps1 (F := Ideal)) W (Proc.devRef .tc main_arg9) = W (Proc.devRef .tc main_arg9) := by
  simp only [hostOps1]
  after_results
  all_goals rfl

theorem s1_keep_main_arg10 : after (hostOps1 (F := Ideal)) W (Proc.devRef .tc main_arg10) = W (Proc.devRef .tc main_arg10) := by
  simp only [hostOps1]
  after_results
  all_goals rfl

/-! ## The stretch before region 2 -/

set_option maxHeartbeats 4000000 in
/-- The mean chain applied to the previous region's output: the sources and destinations were sliced out of the edge
    list by the first stretch and are read back here. -/
theorem s2_mean (a1 : IVec S2x1600000 32)
    (hsrc : W (Proc.devRef .tc main_v1) = Cert.ReferenceIdeal.Read.val_main_v1 (F := Ideal) a1)
    (hdst : W (Proc.devRef .tc main_v3) = Cert.ReferenceIdeal.Read.val_main_v3 (F := Ideal) a1) :
    after (hostOps2 (F := Ideal)) W (Proc.devRef .tc main_v66)
      = Cert.ReferenceIdeal.Read.val_main_v22 (F := Ideal) (W (Proc.devRef .tc main_v47)) a1 := by
  simp only [hostOps2]
  after_results_simp
  rw [hsrc, hdst]
  rfl

/-- The first matrix, transposed. -/
theorem s2_wl : after (hostOps2 (F := Ideal)) W (Proc.devRef .tc main_v67)
    = Cert.ReferenceIdeal.Read.val_main_v23 (F := Ideal) (W (Proc.devRef .tc main_arg8)) := by
  simp only [hostOps2]
  after_results
  all_goals rfl

/-- The second matrix, transposed. -/
theorem s2_wr : after (hostOps2 (F := Ideal)) W (Proc.devRef .tc main_v68)
    = Cert.ReferenceIdeal.Read.val_main_v23 (F := Ideal) (W (Proc.devRef .tc main_arg10)) := by
  simp only [hostOps2]
  after_results
  all_goals rfl

theorem s2_keep_main_v47 : after (hostOps2 (F := Ideal)) W (Proc.devRef .tc main_v47) = W (Proc.devRef .tc main_v47) := by
  simp only [hostOps2]
  after_results
  all_goals rfl

theorem s2_keep_main_arg9 : after (hostOps2 (F := Ideal)) W (Proc.devRef .tc main_arg9) = W (Proc.devRef .tc main_arg9) := by
  simp only [hostOps2]
  after_results
  all_goals rfl

end Cert.KernelIdeal.Stretch

end
-- ==== Proof.RefLayers.lean ====
/-
  The plain program's three layers, each as the dense-layer function of the features that enter it.

  The plain program computes, per layer, the mean of every node's in-neighbours' features (a gather of rows, a sum into
  destination rows, a division by the clipped in-degree — one chain of host operations, the same in all three layers and
  applied to the layer's input), then the two products and the bias, then (first two layers) the maximum with zero. Its
  stage functions are nested definitions; unfolding the few around the products shows each layer's output as `relu` /
  `lin` of: the previous layer's output, that chain applied to it, the two transposed matrices, and the bias. The chain
  itself is never opened: the mean entering layers two and three is, by unfolding names only, the first layer's chain
  applied to the previous output.
-/
import proofs.«103532_j33801392619948_1_alg».proof.Proof.Gen.ReferenceIdeal.Read
import proofs.«103532_j33801392619948_1_alg».proof.Proof.DenseLayer

noncomputable section

namespace Cert.ReferenceIdeal.Layers

open Cert.ReferenceIdeal Cert.ReferenceIdeal.Gen Cert.ReferenceIdeal.Read Idealize.ShloMosaic Idealize.ShloMosaic.TcCoe

variable (x0 : FVec Ideal S100000x128 .f32) (x1 : IVec S2x1600000 32)
  (x2 x4 x5 x7 x8 x10 : FVec Ideal S128x128 .f32) (x3 x6 x9 : FVec Ideal S128 .f32)

/-- The mean chain of the second layer is the first layer's chain applied to the first layer's output. -/
theorem mean1_eq : val_main_v50 (F := Ideal) x0 x1 x2 x3 x4 = val_main_v22 (F := Ideal) (val_main_v31 (F := Ideal) x0 x1 x2 x3 x4) x1 := rfl

/-- The mean chain of the third layer is the first layer's chain applied to the second layer's output. -/
theorem mean2_eq : val_main_v78 (F := Ideal) x0 x1 x2 x3 x4 x5 x6 x7 = val_main_v22 (F := Ideal) (val_main_v59 (F := Ideal) x0 x1 x2 x3 x4 x5 x6 x7) x1 := rfl

/-- The first layer. -/
theorem layer0 : val_main_v31 (F := Ideal) x0 x1 x2 x3 x4
    = DenseLayer.relu 100000 x0 (val_main_v22 (F := Ideal) x0 x1) (val_main_v23 (F := Ideal) x2) (val_main_v28 (F := Ideal) x4) x3 := by
  unfold val_main_v31 val_main_v30 val_main_v27 val_main_v29 val_main_v24 val_main_v26 val_main_v25 val_main_call0_v0 val_main_call0_cst
  exact DenseLayer.host_relu 100000 x0 (val_main_v22 (F := Ideal) x0 x1) (val_main_v23 (F := Ideal) x2) (val_main_v28 (F := Ideal) x4) x3
    bcast_S128_S1x128_1 bcast_S1x128_S100000x128_0_1 bcast_S_S100000x128

/-- The second layer. -/
theorem layer1 : val_main_v59 (F := Ideal) x0 x1 x2 x3 x4 x5 x6 x7
    = DenseLayer.relu 100000 (val_main_v31 (F := Ideal) x0 x1 x2 x3 x4) (val_main_v50 (F := Ideal) x0 x1 x2 x3 x4)
        (val_main_v51 (F := Ideal) x5) (val_main_v56 (F := Ideal) x7) x6 := by
  unfold val_main_v59 val_main_v58 val_main_v55 val_main_v57 val_main_v52 val_main_v54 val_main_v53 val_main_call1_v0 val_main_call1_cst
  exact DenseLayer.host_relu 100000 (val_main_v31 (F := Ideal) x0 x1 x2 x3 x4) (val_main_v50 (F := Ideal) x0 x1 x2 x3 x4)
    (val_main_v51 (F := Ideal) x5) (val_main_v56 (F := Ideal) x7) x6
    bcast_S128_S1x128_1 bcast_S1x128_S100000x128_0_1 bcast_S_S100000x128

/-- The third layer: no nonlinearity. -/
theorem layer2 : val_main_v86 (F := Ideal) x0 x1 x2 x3 x4 x5 x6 x7 x8 x9 x10
    = DenseLayer.lin 100000 (val_main_v59 (F := Ideal) x0 x1 x2 x3 x4 x5 x6 x7) (val_main_v78 (F := Ideal) x0 x1 x2 x3 x4 x5 x6 x7)
        (val_main_v79 (F := Ideal) x8) (val_main_v84 (F := Ideal) x10) x9 := by
  unfold val_main_v86 val_main_v83 val_main_v85 val_main_v80 val_main_v82 val_main_v81
  exact DenseLayer.host_lin 100000 (val_main_v59 (F := Ideal) x0 x1 x2 x3 x4 x5 x6 x7) (val_main_v78 (F := Ideal) x0 x1 x2 x3 x4 x5 x6 x7)
    (val_main_v79 (F := Ideal) x8) (val_main_v84 (F := Ideal) x10) x9
    bcast_S128_S1x128_1 bcast_S1x128_S100000x128_0_1

end Cert.ReferenceIdeal.Layers

end
-- ==== Proof.KernelValue.lean ====
/-
  The tiled program's buffers at each boundary, as the plain program's stage functions of the launch arguments.

  Walking the fold from the launch memory: the first stretch leaves the mean chain of the input features and the
  transposed matrices; region 0 leaves the first layer of those, which is the plain program's first layer (the
  dense-layer function on both sides); the second stretch applies the same chain to that output, reading the sources and
  destinations the first stretch sliced out, which no region or later stretch touches; region 1 leaves the second layer;
  the third stretch and region 2 the third. So the result array ends holding the plain program's result function of
  the eleven arguments.
-/
import proofs.«103532_j33801392619948_1_alg».proof.Proof.Region0
import proofs.«103532_j33801392619948_1_alg».proof.Proof.Region1
import proofs.«103532_j33801392619948_1_alg».proof.Proof.Region2
import proofs.«103532_j33801392619948_1_alg».proof.Proof.HostStretch
import proofs.«103532_j33801392619948_1_alg».proof.Proof.RefLayers

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## After the first stretch -/

theorem w1_mean : W1 m ρ c (Proc.devRef .tc main_v22) = Cert.ReferenceIdeal.Read.val_main_v22 (F := Ideal) (m ((c : Thread nD τ).loc main_arg0)) (m ((c : Thread nD τ).loc main_arg1)) :=
  Stretch.s0_mean (W0 m ρ c)
theorem w1_src : W1 m ρ c (Proc.devRef .tc main_v1) = (Cert.ReferenceIdeal.Read.val_main_v1 (F := Ideal) (m ((c : Thread nD τ).loc main_arg1))) := Stretch.s0_src (W0 m ρ c)
theorem w1_dst : W1 m ρ c (Proc.devRef .tc main_v3) = (Cert.ReferenceIdeal.Read.val_main_v3 (F := Ideal) (m ((c : Thread nD τ).loc main_arg1))) := Stretch.s0_dst (W0 m ρ c)
theorem w1_wl : W1 m ρ c (Proc.devRef .tc main_v23) = Cert.ReferenceIdeal.Read.val_main_v23 (F := Ideal) (m ((c : Thread nD τ).loc main_arg2)) := Stretch.s0_wl (W0 m ρ c)
theorem w1_wr : W1 m ρ c (Proc.devRef .tc main_v24) = Cert.ReferenceIdeal.Read.val_main_v28 (F := Ideal) (m ((c : Thread nD τ).loc main_arg4)) := Stretch.s0_wr (W0 m ρ c)
theorem w1_arg0 : W1 m ρ c (Proc.devRef .tc main_arg0) = (m ((c : Thread nD τ).loc main_arg0)) := Stretch.s0_keep_main_arg0 (W0 m ρ c)
theorem w1_arg3 : W1 m ρ c (Proc.devRef .tc main_arg3) = (m ((c : Thread nD τ).loc main_arg3)) := Stretch.s0_keep_main_arg3 (W0 m ρ c)
theorem w1_arg5 : W1 m ρ c (Proc.devRef .tc main_arg5) = (m ((c : Thread nD τ).loc main_arg5)) := Stretch.s0_keep_main_arg5 (W0 m ρ c)
theorem w1_arg6 : W1 m ρ c (Proc.devRef .tc main_arg6) = (m ((c : Thread nD τ).loc main_arg6)) := Stretch.s0_keep_main_arg6 (W0 m ρ c)
theorem w1_arg7 : W1 m ρ c (Proc.devRef .tc main_arg7) = (m ((c : Thread nD τ).loc main_arg7)) := Stretch.s0_keep_main_arg7 (W0 m ρ c)
theorem w1_arg8 : W1 m ρ c (Proc.devRef .tc main_arg8) = (m ((c : Thread nD τ).loc main_arg8)) := Stretch.s0_keep_main_arg8 (W0 m ρ c)
theorem w1_arg9 : W1 m ρ c (Proc.devRef .tc main_arg9) = (m ((c : Thread nD τ).loc main_arg9)) := Stretch.s0_keep_main_arg9 (W0 m ρ c)
theorem w1_arg10 : W1 m ρ c (Proc.devRef .tc main_arg10) = (m ((c : Thread nD τ).loc main_arg10)) := Stretch.s0_keep_main_arg10 (W0 m ρ c)

/-! ## After region 0 -/

/-- Region 0's output is the plain program's first layer. -/
theorem w2_h : W2 m ρ c (Proc.devRef .tc main_v25) = (Cert.ReferenceIdeal.Read.val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4))) := by
  refine (W2_arr m ρ c 5).trans ((Region0.final (V1 m ρ) c).trans ?_)
  show DenseLayer.relu 100000 (W1 m ρ c (Proc.devRef .tc main_arg0)) (W1 m ρ c (Proc.devRef .tc main_v22)) (W1 m ρ c (Proc.devRef .tc main_v23))
    (W1 m ρ c (Proc.devRef .tc main_v24)) (W1 m ρ c (Proc.devRef .tc main_arg3)) = _
  rw [w1_arg0, w1_mean, w1_wl, w1_wr, w1_arg3]
  exact (Cert.ReferenceIdeal.Layers.layer0 _ _ _ _ _).symm
theorem w2_main_v1 : W2 m ρ c (Proc.devRef .tc main_v1) = W1 m ρ c (Proc.devRef .tc main_v1) := W2_of_ne m ρ c main_v1 (by decide)
theorem w2_main_v3 : W2 m ρ c (Proc.devRef .tc main_v3) = W1 m ρ c (Proc.devRef .tc main_v3) := W2_of_ne m ρ c main_v3 (by decide)
theorem w2_main_arg5 : W2 m ρ c (Proc.devRef .tc main_arg5) = W1 m ρ c (Proc.devRef .tc main_arg5) := W2_of_ne m ρ c main_arg5 (by decide)
theorem w2_main_arg6 : W2 m ρ c (Proc.devRef .tc main_arg6) = W1 m ρ c (Proc.devRef .tc main_arg6) := W2_of_ne m ρ c main_arg6 (by decide)
theorem w2_main_arg7 : W2 m ρ c (Proc.devRef .tc main_arg7) = W1 m ρ c (Proc.devRef .tc main_arg7) := W2_of_ne m ρ c main_arg7 (by decide)
theorem w2_main_arg8 : W2 m ρ c (Proc.devRef .tc main_arg8) = W1 m ρ c (Proc.devRef .tc main_arg8) := W2_of_ne m ρ c main_arg8 (by decide)
theorem w2_main_arg9 : W2 m ρ c (Proc.devRef .tc main_arg9) = W1 m ρ c (Proc.devRef .tc main_arg9) := W2_of_ne m ρ c main_arg9 (by decide)
theorem w2_main_arg10 : W2 m ρ c (Proc.devRef .tc main_arg10) = W1 m ρ c (Proc.devRef .tc main_arg10) := W2_of_ne m ρ c main_arg10 (by decide)

/-! ## After the second stretch -/

theorem w3_h : W3 m ρ c (Proc.devRef .tc main_v25) = (Cert.ReferenceIdeal.Read.val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4))) := (Stretch.s1_keep_main_v25 (W2 m ρ c)).trans (w2_h m ρ c)
theorem w3_mean : W3 m ρ c (Proc.devRef .tc main_v44) = Cert.ReferenceIdeal.Read.val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (Stretch.s1_mean (W2 m ρ c) (m ((c : Thread nD τ).loc main_arg1)) ((w2_main_v1 m ρ c).trans (w1_src m ρ c)) ((w2_main_v3 m ρ c).trans (w1_dst m ρ c))).trans ?_
  rw [w2_h]
  exact (Cert.ReferenceIdeal.Layers.mean1_eq _ _ _ _ _).symm
theorem w3_wl : W3 m ρ c (Proc.devRef .tc main_v45) = Cert.ReferenceIdeal.Read.val_main_v51 (F := Ideal) (m ((c : Thread nD τ).loc main_arg5)) := by
  refine (Stretch.s1_wl (W2 m ρ c)).trans ?_
  rw [w2_main_arg5, w1_arg5]; rfl
theorem w3_wr : W3 m ρ c (Proc.devRef .tc main_v46) = Cert.ReferenceIdeal.Read.val_main_v56 (F := Ideal) (m ((c : Thread nD τ).loc main_arg7)) := by
  refine (Stretch.s1_wr (W2 m ρ c)).trans ?_
  rw [w2_main_arg7, w1_arg7]; rfl
theorem w3_b : W3 m ρ c (Proc.devRef .tc main_arg6) = (m ((c : Thread nD τ).loc main_arg6)) :=
  (Stretch.s1_keep_main_arg6 (W2 m ρ c)).trans ((w2_main_arg6 m ρ c).trans (w1_arg6 m ρ c))
theorem w3_src : W3 m ρ c (Proc.devRef .tc main_v1) = (Cert.ReferenceIdeal.Read.val_main_v1 (F := Ideal) (m ((c : Thread nD τ).loc main_arg1))) :=
  (Stretch.s1_keep_main_v1 (W2 m ρ c)).trans ((w2_main_v1 m ρ c).trans (w1_src m ρ c))
theorem w3_dst : W3 m ρ c (Proc.devRef .tc main_v3) = (Cert.ReferenceIdeal.Read.val_main_v3 (F := Ideal) (m ((c : Thread nD τ).loc main_arg1))) :=
  (Stretch.s1_keep_main_v3 (W2 m ρ c)).trans ((w2_main_v3 m ρ c).trans (w1_dst m ρ c))
theorem w3_arg8 : W3 m ρ c (Proc.devRef .tc main_arg8) = (m ((c : Thread nD τ).loc main_arg8)) :=
  (Stretch.s1_keep_main_arg8 (W2 m ρ c)).trans ((w2_main_arg8 m ρ c).trans (w1_arg8 m ρ c))
theorem w3_arg9 : W3 m ρ c (Proc.devRef .tc main_arg9) = (m ((c : Thread nD τ).loc main_arg9)) :=
  (Stretch.s1_keep_main_arg9 (W2 m ρ c)).trans ((w2_main_arg9 m ρ c).trans (w1_arg9 m ρ c))
theorem w3_arg10 : W3 m ρ c (Proc.devRef .tc main_arg10) = (m ((c : Thread nD τ).loc main_arg10)) :=
  (Stretch.s1_keep_main_arg10 (W2 m ρ c)).trans ((w2_main_arg10 m ρ c).trans (w1_arg10 m ρ c))

/-! ## After region 1 -/

/-- Region 1's output is the plain program's second layer. -/
theorem w4_h : W4 m ρ c (Proc.devRef .tc main_v47) = (Cert.ReferenceIdeal.Read.val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  refine (W4_arr m ρ c 5).trans ((Region1.final (V3 m ρ) c).trans ?_)
  show DenseLayer.relu 100000 (W3 m ρ c (Proc.devRef .tc main_v25)) (W3 m ρ c (Proc.devRef .tc main_v44)) (W3 m ρ c (Proc.devRef .tc main_v45))
    (W3 m ρ c (Proc.devRef .tc main_v46)) (W3 m ρ c (Proc.devRef .tc main_arg6)) = _
  rw [w3_h, w3_mean, w3_wl, w3_wr, w3_b]
  exact (Cert.ReferenceIdeal.Layers.layer1 _ _ _ _ _ _ _ _).symm
theorem w4_main_v1 : W4 m ρ c (Proc.devRef .tc main_v1) = W3 m ρ c (Proc.devRef .tc main_v1) := W4_of_ne m ρ c main_v1 (by decide)
theorem w4_main_v3 : W4 m ρ c (Proc.devRef .tc main_v3) = W3 m ρ c (Proc.devRef .tc main_v3) := W4_of_ne m ρ c main_v3 (by decide)
theorem w4_main_arg8 : W4 m ρ c (Proc.devRef .tc main_arg8) = W3 m ρ c (Proc.devRef .tc main_arg8) := W4_of_ne m ρ c main_arg8 (by decide)
theorem w4_main_arg9 : W4 m ρ c (Proc.devRef .tc main_arg9) = W3 m ρ c (Proc.devRef .tc main_arg9) := W4_of_ne m ρ c main_arg9 (by decide)
theorem w4_main_arg10 : W4 m ρ c (Proc.devRef .tc main_arg10) = W3 m ρ c (Proc.devRef .tc main_arg10) := W4_of_ne m ρ c main_arg10 (by decide)

/-! ## After the third stretch -/

theorem w5_h : W5 m ρ c (Proc.devRef .tc main_v47) = (Cert.ReferenceIdeal.Read.val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := (Stretch.s2_keep_main_v47 (W4 m ρ c)).trans (w4_h m ρ c)
theorem w5_mean : W5 m ρ c (Proc.devRef .tc main_v66) = Cert.ReferenceIdeal.Read.val_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (Stretch.s2_mean (W4 m ρ c) (m ((c : Thread nD τ).loc main_arg1)) ((w4_main_v1 m ρ c).trans (w3_src m ρ c)) ((w4_main_v3 m ρ c).trans (w3_dst m ρ c))).trans ?_
  rw [w4_h]
  exact (Cert.ReferenceIdeal.Layers.mean2_eq _ _ _ _ _ _ _ _).symm
theorem w5_wl : W5 m ρ c (Proc.devRef .tc main_v67) = Cert.ReferenceIdeal.Read.val_main_v79 (F := Ideal) (m ((c : Thread nD τ).loc main_arg8)) := by
  refine (Stretch.s2_wl (W4 m ρ c)).trans ?_
  rw [w4_main_arg8, w3_arg8]; rfl
theorem w5_wr : W5 m ρ c (Proc.devRef .tc main_v68) = Cert.ReferenceIdeal.Read.val_main_v84 (F := Ideal) (m ((c : Thread nD τ).loc main_arg10)) := by
  refine (Stretch.s2_wr (W4 m ρ c)).trans ?_
  rw [w4_main_arg10, w3_arg10]; rfl
theorem w5_b : W5 m ρ c (Proc.devRef .tc main_arg9) = (m ((c : Thread nD τ).loc main_arg9)) :=
  (Stretch.s2_keep_main_arg9 (W4 m ρ c)).trans ((w4_main_arg9 m ρ c).trans (w3_arg9 m ρ c))

/-! ## The result -/

/-- THE RESULT ARRAY after the last region is the plain program's result function of the launch arguments. -/
theorem result_eq : (dat2 (V5 m ρ) c).arrAt 5 cfg2.N
    = Cert.ReferenceIdeal.Read.val_main_v86 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (Region2.final (V5 m ρ) c).trans ?_
  show DenseLayer.lin 100000 (W5 m ρ c (Proc.devRef .tc main_v47)) (W5 m ρ c (Proc.devRef .tc main_v66)) (W5 m ρ c (Proc.devRef .tc main_v67))
    (W5 m ρ c (Proc.devRef .tc main_v68)) (W5 m ρ c (Proc.devRef .tc main_arg9)) = _
  rw [w5_h, w5_mean, w5_wl, w5_wr, w5_b]
  exact (Cert.ReferenceIdeal.Layers.layer2 _ _ _ _ _ _ _ _ _ _ _).symm

end Cert.KernelIdeal.Chain

end
-- ==== Proof.lean ====
/-
  A three-layer graph convolution with mean aggregation over 100000 nodes with 128 features and 1600000 edges: the tiled
  program against the plain one, on the extended reals.

  Each layer forms, for every node, the mean of its in-neighbours' features (rows gathered by source, summed into
  destination rows, divided by the in-degree clipped below at one) and then
      out(p, q) = Σₖ mean(p,k)·Wl(q,k) + Σₖ h(p,k)·Wr(q,k) + b(q),
  followed, in the first two layers, by the maximum with zero. The aggregation is the same chain of host operations in
  both programs. The tiled program computes the rest of a layer in 20 tiles of 5000 rows, adding the two products first
  and the bias last; the plain program adds the bias to the first product and the second product last. On the extended
  reals the two groupings agree by commutativity and associativity of addition alone, so the finiteness of the inputs is
  not used. Operands rounded to a narrower format on the way into the matrix unit are unchanged there, and a product
  accumulated into the zero splat is the plain sum of products.

  The frames of the two tiled programs are the generated ones; the plain program's frame is its generated run with the
  result dropped. Nothing was rewritten when the tiled program was idealized, so that claim is trivial. For the value
  claim the tiled program's run is launched once more with its result array named (KernelRun), each region's output is
  shown to be the layer of the arrays the region found (Region0, Region1, Region2 over DenseLayer), the host stretches
  are read for any starting contents (HostStretch), the plain program's stages are grouped by layer (RefLayers), and the
  chain through the program's six boundaries (KernelValue) ends at the plain program's result function of the arguments.
-/
import proofs.«103532_j33801392619948_1_alg».proof.Defs
import proofs.«103532_j33801392619948_1_alg».proof.Proof.Gen.Kernel
import proofs.«103532_j33801392619948_1_alg».proof.Proof.Gen.Kernel.Skeleton
import proofs.«103532_j33801392619948_1_alg».proof.Proof.Gen.Kernel.Launch
import proofs.«103532_j33801392619948_1_alg».proof.Proof.Gen.Kernel.Points
import proofs.«103532_j33801392619948_1_alg».proof.Proof.Gen.Kernel.Frame
import proofs.«103532_j33801392619948_1_alg».proof.Proof.Gen.KernelIdeal
import proofs.«103532_j33801392619948_1_alg».proof.Proof.Gen.KernelIdeal.Skeleton
import proofs.«103532_j33801392619948_1_alg».proof.Proof.Gen.KernelIdeal.Launch
import proofs.«103532_j33801392619948_1_alg».proof.Proof.Gen.KernelIdeal.Points
import proofs.«103532_j33801392619948_1_alg».proof.Proof.Gen.KernelIdeal.Frame
import proofs.«103532_j33801392619948_1_alg».proof.Proof.Gen.ReferenceIdeal
import proofs.«103532_j33801392619948_1_alg».proof.Proof.Gen.ReferenceIdeal.Read
import proofs.«103532_j33801392619948_1_alg».proof.Proof.Gen.Pre_finite_inputs
import proofs.«103532_j33801392619948_1_alg».proof.Proof.KernelRun
import proofs.«103532_j33801392619948_1_alg».proof.Proof.KernelValue
import Idealize.ShloMosaic.Adequacy
import Idealize.ShloMosaic.Init

noncomputable section

namespace Cert.Proof

open Idealize.ShloMosaic Idealize.SL.Sem

/-- The tiled program as printed runs to the end and leaves its arguments as they were. -/
theorem frame_kernel : Cert.frame_Kernel := fun m ρ _ => Cert.Kernel.Gen.frame m ρ

/-- So does its reading on the extended reals. -/
theorem frame_ideal : Cert.frame_KernelIdeal := fun m ρ _ => Cert.KernelIdeal.Gen.frame m ρ

/-- The plain program runs to the end and leaves its arguments as they were: its run, with the result forgotten. -/
theorem frame_ref : Cert.frame_ReferenceIdeal := fun m ρ _ =>
  (θ_run Cert.ReferenceIdeal.defs _ _).mono (fun _ h c => (h c).2) (Cert.ReferenceIdeal.Value.run (F := Ideal) m ρ)

/-- No operation of the tiled program was rewritten to read it on the extended reals. -/
theorem preserves : Cert.preserves_Kernel_KernelIdeal := trivial

/-- From memories that agree on the eleven arguments both programs end with the same result array: the plain program's
    result function of the arguments. -/
theorem algebraic : Cert.algebraic_KernelIdeal_ReferenceIdeal := by
  intro m ρ m' ρ' _ hagree
  refine ⟨fun c => Cert.ReferenceIdeal.Read.val_main_v86 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun _ h c => ⟨(h c).1.trans (Cert.KernelIdeal.Chain.result_eq m ρ c), (h c).2⟩)
      (Cert.KernelIdeal.Run.run_result m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v86_eq]
    obtain ⟨e0, e1, e2, e3, e4, e5, e6, e7, e8, e9, e10⟩ := hagree c
    rw [e0, e1, e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_kernel, frame_ideal, frame_ref, preserves, algebraic⟩

end Cert.Proof

end
